-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S2000x1 : Shape := ⟨2, ![2000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 85
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S50000, .f32⟩
  | .hbm, ⟨44, _⟩ => ⟨S50000x1, .f32⟩
  | .hbm, ⟨45, _⟩ => ⟨S128x256, .bf16⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S800000x1, .f32⟩
  | .hbm, ⟨57, _⟩ => ⟨S800000x256, .f32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S256x128, .bf16⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x1, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S128x128, .bf16⟩
  | .hbm, ⟨82, _⟩ => ⟨S128x128, .bf16⟩
  | .hbm, ⟨83, _⟩ => ⟨S50000x128, .f32⟩
  | .hbm, ⟨84, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256, .f32⟩
  | .local _ .vmem, ⟨12, _⟩ => ⟨S256x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S128, .f32⟩
  | .local _ .vmem, ⟨22, _⟩ => ⟨S128x128, .bf16⟩
  | .local _ .vmem, ⟨23, _⟩ => ⟨S128, .f32⟩
  | .local _ .vmem, ⟨24, _⟩ => ⟨S128x128, .bf16⟩
  | .local _ .vmem, ⟨25, _⟩ => ⟨S128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60_0 : Ref sig .tc := ⟨.hbm, 83, rfl⟩
abbrev main_v60_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60_0) S2000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v60_1) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatProd.lean ====
/-
  The product of two matrices on the extended reals as ONE whole-array function, and the two operations that compute it
  (any extents).

  For A : [a, k] and B : [k, b] the entry (p, q) of A·B is the sum over j of A (p, j) · B (j, q). At the exact instance
  the matrix unit's product into a zero accumulator and the host's dot product, both with the plain dimension numbers
  (contract the left operand's second axis against the right operand's first, no batch axis), are this function of their
  operands; a narrowing of the operands' float format beforehand changes nothing, being the identity on extended reals.
-/
import proofs.«116010_j87333864997319_2_alg».proof.Proof.LibMatmul
import Idealize.ShloMosaic.Lib.Pipeline.Value

noncomputable section

open scoped BigOperators

namespace Cert.Products

open Idealize.ShloMosaic Idealize.ShloMosaic.ValueIdx

/-- Entry (p, q) of A·B: the sum over j of A (p, j) · B (j, q). -/
def matProd {a k b : ℕ} (A : (⟨2, ![a, k]⟩ : Shape).Idx → EReal) (B : (⟨2, ![k, b]⟩ : Shape).Idx → EReal) :
    (⟨2, ![a, b]⟩ : Shape).Idx → EReal :=
  fun i => ∑ j : Fin k, A (ix2 (i 0) j) * B (ix2 j (i 1))

theorem matProd_ix2 {a k b : ℕ} (A : (⟨2, ![a, k]⟩ : Shape).Idx → EReal) (B : (⟨2, ![k, b]⟩ : Shape).Idx → EReal)
    (p : Fin a) (q : Fin b) : matProd A B (ix2 p q) = ∑ j : Fin k, A (ix2 p j) * B (ix2 j q) := rfl

section Plain

variable {a k b : ℕ} (d : DotDims ⟨2, ![a, k]⟩ ⟨2, ![k, b]⟩ ⟨2, ![a, b]⟩)
variable (hl : d.lhsContracting = [1]) (hr : d.rhsContracting = [0]) (hln : d.lhsNonContracting = [0])
variable (hrn : d.rhsNonContracting = [1]) (hlb : d.lhsBatch = []) (hrb : d.rhsBatch = [])
variable {φ₁ φ₂ : FTy}

include hl hr hln hrn hlb hrb in
/-- The matrix unit's product into the zero accumulator is the product. -/
theorem matmul_zero_eq (prec : Option ContractPrecision) (lhs : FVec Ideal ⟨2, ![a, k]⟩ φ₁) (rhs : FVec Ideal ⟨2, ![k, b]⟩ φ₂) :
    FloatOps.matmul d prec lhs rhs (constant ⟨2, ![a, b]⟩ .f32 0x00000000#32) = matProd lhs rhs := by
  funext i
  obtain ⟨p, q, rfl⟩ : ∃ (p : Fin a) (q : Fin b), i = ix2 p q := ⟨i 0, i 1, eq_ix2 i⟩
  exact matmul_zero_ix2 d hl hr hln hrn hlb hrb prec lhs rhs p q

include hl hr hln hrn hlb hrb in
/-- The host's dot product is the product. -/
theorem dotGeneral_eq (prec : Option ContractPrecision) (sched : HostSchedule) (lhs : FVec Ideal ⟨2, ![a, k]⟩ φ₁)
    (rhs : FVec Ideal ⟨2, ![k, b]⟩ φ₂) :
    FloatOps.dotGeneral d prec sched lhs rhs = matProd lhs rhs := by
  funext i
  obtain ⟨p, q, rfl⟩ : ∃ (p : Fin a) (q : Fin b), i = ix2 p q := ⟨i 0, i 1, eq_ix2 i⟩
  exact dotGeneral_ix2 d hl hr hln hrn hlb hrb prec sched lhs rhs p q

end Plain

/-- Narrowing both operands to bf16 first changes nothing: on extended reals the narrowing is the identity. -/
theorem matProd_narrowed {a k b : ℕ} (A : FVec Ideal ⟨2, ![a, k]⟩ .f32) (B : FVec Ideal ⟨2, ![k, b]⟩ .f32)
    (hA hB : FTy.bf16.bits < FTy.f32.bits) :
    matProd (truncf .bf16 A hA) (truncf .bf16 B hB) = matProd A B := rfl

/-- A product depends on its left operand only through the rows it reads: if A' (p', ·) is row p of A, the entries
    (p', q) of A'·B and (p, q) of A·B agree. -/
theorem matProd_row {a a' k b : ℕ} (A : (⟨2, ![a, k]⟩ : Shape).Idx → EReal) (A' : (⟨2, ![a', k]⟩ : Shape).Idx → EReal)
    (B : (⟨2, ![k, b]⟩ : Shape).Idx → EReal) (p : Fin a) (p' : Fin a') (q : Fin b)
    (h : ∀ j : Fin k, A' (ix2 p' j) = A (ix2 p j)) : matProd A' B (ix2 p' q) = matProd A B (ix2 p q) := by
  rw [matProd_ix2, matProd_ix2]
  exact Finset.sum_congr rfl fun j _ => by rw [h j]

end Cert.Products

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibFinishRows.lean ====
/-
  The finishing step of a graph-convolution layer whose self-loops are a dense term, read on the extended reals, for
  any extents.

  `finish zr seg h dsq b` is, entry by entry, `max (seg + dsq · h + b, zr)`: the aggregate over the real edges `seg`, the
  self-loop's term (the column `dsq : [a, 1]` of per-row coefficients against the row of `h`), the bias row `b : [K]`, and
  the rectifier against `zr`.
  * A kernel body's vector code for it — identity casts, the column spread along the rows, the bias cast to a row and
    spread down the rows, the rectifier against a splat — is that function (`finish_vec`);
  * so the body's product of the narrowed activation with a weight into a zero accumulator is the product of
    `finish …` with the weight (`finish_matmul`), and with a bias row added after the product, that plus the bias
    (`finish_matmul_bias`);
  * an entry of `finish` depends only on its own entries of `seg`, `h`, its row's coefficient and its column's bias
    (`finish_congr_entry`): a block of rows of the finished activation is the finished activation of the blocks.
  It imports the rank-2 product as one function and the column spread read at coordinates.
-/
import proofs.«116010_j87333864997319_2_alg».proof.Proof.LibMatProd
import proofs.«116010_j87333864997319_2_alg».proof.Proof.LibColumns
import Idealize.ShloMosaic.Lib.ValueLayout
import Idealize.ShloMosaic.Lib.Pipeline.Value

noncomputable section

open scoped BigOperators

namespace Cert.Products

open Idealize.ShloMosaic Idealize.ShloMosaic.ValueIdx

variable {a K Q : ℕ}

/-- `max (seg + dsq · h + b, zr)`, entry by entry. -/
def finish (zr : EReal) (seg h : (⟨2, ![a, K]⟩ : Shape).Idx → EReal) (dsq : (⟨2, ![a, 1]⟩ : Shape).Idx → EReal)
    (b : (⟨1, ![K]⟩ : Shape).Idx → EReal) : (⟨2, ![a, K]⟩ : Shape).Idx → EReal :=
  fun i => max ((seg i + dsq (ix2 (i 0) (0 : Fin 1)) * h i) + b (ix1 (i 1))) zr

theorem finish_ix2 (zr : EReal) (seg h : (⟨2, ![a, K]⟩ : Shape).Idx → EReal) (dsq : (⟨2, ![a, 1]⟩ : Shape).Idx → EReal)
    (b : (⟨1, ![K]⟩ : Shape).Idx → EReal) (p : Fin a) (j : Fin K) :
    finish zr seg h dsq b (ix2 p j)
      = max ((seg (ix2 p j) + dsq (ix2 p (0 : Fin 1)) * h (ix2 p j)) + b (ix1 j)) zr := rfl

/-- An entry of the finished activation depends only on its own entries of the aggregate and of the features, its row's
    coefficient and its column's bias. -/
theorem finish_congr_entry {a' : ℕ} (zr : EReal) (seg h : (⟨2, ![a, K]⟩ : Shape).Idx → EReal)
    (dsq : (⟨2, ![a, 1]⟩ : Shape).Idx → EReal) (b b' : (⟨1, ![K]⟩ : Shape).Idx → EReal)
    (seg' h' : (⟨2, ![a', K]⟩ : Shape).Idx → EReal) (dsq' : (⟨2, ![a', 1]⟩ : Shape).Idx → EReal)
    (p : Fin a) (p' : Fin a') (j : Fin K)
    (hseg : seg' (ix2 p' j) = seg (ix2 p j)) (hh : h' (ix2 p' j) = h (ix2 p j))
    (hd : dsq' (ix2 p' (0 : Fin 1)) = dsq (ix2 p (0 : Fin 1))) (hb : b' (ix1 j) = b (ix1 j)) :
    finish zr seg' h' dsq' b' (ix2 p' j) = finish zr seg h dsq b (ix2 p j) := by
  rw [finish_ix2, finish_ix2, hseg, hh, hd, hb]

section Vec
variable (c1 : (⟨2, ![a, K]⟩ : Shape).ShapeCasts ⟨2, ![a, K]⟩) (c2 : (⟨2, ![a, 1]⟩ : Shape).ShapeCasts ⟨2, ![a, 1]⟩)
  (c3 : (⟨1, ![K]⟩ : Shape).ShapeCasts ⟨2, ![1, K]⟩)
  (b1 : (⟨2, ![a, 1]⟩ : Shape).Broadcasts ⟨2, ![a, K]⟩) (b2 : (⟨2, ![1, K]⟩ : Shape).Broadcasts ⟨2, ![a, K]⟩)

/-- A kernel body's vector code for the finished activation is `finish`. -/
theorem finish_vec (seg h : FVec Ideal ⟨2, ![a, K]⟩ .f32) (dsq : FVec Ideal ⟨2, ![a, 1]⟩ .f32)
    (b : FVec Ideal ⟨1, ![K]⟩ .f32) (zw : BitVec 32) :
    maximumf (addf (addf (shapeCast ⟨2, ![a, K]⟩ seg c1)
          (mulf (broadcastTo ⟨2, ![a, K]⟩ (shapeCast ⟨2, ![a, 1]⟩ dsq c2) b1) (shapeCast ⟨2, ![a, K]⟩ h c1)))
        (broadcastTo ⟨2, ![a, K]⟩ (shapeCast ⟨2, ![1, K]⟩ b c3) b2))
      (broadcast ⟨2, ![a, K]⟩ (Scalar.ofBits (F := Ideal) .f32 zw))
      = finish (Ideal.ofBits .f32 zw) seg h dsq b := by
  funext i
  obtain ⟨p, j, rfl⟩ : ∃ (p : Fin a) (j : Fin K), i = ix2 p j := ⟨i 0, i 1, eq_ix2 i⟩
  rw [shapeCast_self, shapeCast_self, shapeCast_self, finish_ix2]
  show max ((seg (ix2 p j) + broadcastTo ⟨2, ![a, K]⟩ dsq b1 (ix2 p j) * h (ix2 p j))
      + broadcastTo ⟨2, ![a, K]⟩ (shapeCast ⟨2, ![1, K]⟩ b c3) b2 (ix2 p j)) (Ideal.ofBits .f32 zw) = _
  rw [broadcastTo_a1_ab_apply, broadcastTo_1b_ab_apply, shapeCast_a_1a_apply]

section Mat
variable (d : DotDims ⟨2, ![a, K]⟩ ⟨2, ![K, Q]⟩ ⟨2, ![a, Q]⟩)
variable (hl : d.lhsContracting = [1]) (hr : d.rhsContracting = [0]) (hln : d.lhsNonContracting = [0])
variable (hrn : d.rhsNonContracting = [1]) (hlb : d.lhsBatch = []) (hrb : d.rhsBatch = [])
variable (c4 : (⟨2, ![K, Q]⟩ : Shape).ShapeCasts ⟨2, ![K, Q]⟩) (hbits : FTy.bf16.bits < FTy.f32.bits)

include hl hr hln hrn hlb hrb in
/-- The body's product of the narrowed finished activation with a weight, into a zero accumulator. -/
theorem finish_matmul (seg h : FVec Ideal ⟨2, ![a, K]⟩ .f32) (dsq : FVec Ideal ⟨2, ![a, 1]⟩ .f32)
    (b : FVec Ideal ⟨1, ![K]⟩ .f32) (zw : BitVec 32) (w : FVec Ideal ⟨2, ![K, Q]⟩ .bf16) :
    FloatOps.matmul d none
        (truncf .bf16 (maximumf (addf (addf (shapeCast ⟨2, ![a, K]⟩ seg c1)
              (mulf (broadcastTo ⟨2, ![a, K]⟩ (shapeCast ⟨2, ![a, 1]⟩ dsq c2) b1) (shapeCast ⟨2, ![a, K]⟩ h c1)))
            (broadcastTo ⟨2, ![a, K]⟩ (shapeCast ⟨2, ![1, K]⟩ b c3) b2))
          (broadcast ⟨2, ![a, K]⟩ (Scalar.ofBits (F := Ideal) .f32 zw))) hbits)
        (shapeCast ⟨2, ![K, Q]⟩ w c4) (constant ⟨2, ![a, Q]⟩ .f32 0x00000000#32)
      = matProd (finish (Ideal.ofBits .f32 zw) seg h dsq b) w := by
  rw [finish_vec c1 c2 c3 b1 b2, shapeCast_self]
  exact matmul_zero_eq d hl hr hln hrn hlb hrb none _ _

end Mat
end Vec

/-- A bias row cast to `[1, Q]` and spread down the rows, added to a matrix, at `(p, q)`. -/
theorem add_bias_row_apply (c3 : (⟨1, ![Q]⟩ : Shape).ShapeCasts ⟨2, ![1, Q]⟩)
    (b2 : (⟨2, ![1, Q]⟩ : Shape).Broadcasts ⟨2, ![a, Q]⟩) (x : FVec Ideal ⟨2, ![a, Q]⟩ .f32)
    (b : FVec Ideal ⟨1, ![Q]⟩ .f32) (p : Fin a) (q : Fin Q) :
    addf x (broadcastTo ⟨2, ![a, Q]⟩ (shapeCast ⟨2, ![1, Q]⟩ b c3) b2) (ix2 p q) = x (ix2 p q) + b (ix1 q) := by
  show x (ix2 p q) + broadcastTo ⟨2, ![a, Q]⟩ (shapeCast ⟨2, ![1, Q]⟩ b c3) b2 (ix2 p q) = _
  rw [broadcastTo_1b_ab_apply, shapeCast_a_1a_apply]

/-- A matrix with a bias row added to every row, entry by entry. -/
def addRow {a Q : ℕ} (x : (⟨2, ![a, Q]⟩ : Shape).Idx → EReal) (b : (⟨1, ![Q]⟩ : Shape).Idx → EReal) :
    (⟨2, ![a, Q]⟩ : Shape).Idx → EReal :=
  fun i => x i + b (ix1 (i 1))

/-- A kernel body's vector code for it — the bias cast to a row and spread down the rows, added — is that function. -/
theorem add_bias_row (c3 : (⟨1, ![Q]⟩ : Shape).ShapeCasts ⟨2, ![1, Q]⟩)
    (b2 : (⟨2, ![1, Q]⟩ : Shape).Broadcasts ⟨2, ![a, Q]⟩) (x : FVec Ideal ⟨2, ![a, Q]⟩ .f32)
    (b : FVec Ideal ⟨1, ![Q]⟩ .f32) :
    addf x (broadcastTo ⟨2, ![a, Q]⟩ (shapeCast ⟨2, ![1, Q]⟩ b c3) b2) = addRow x b := by
  funext i
  obtain ⟨p, q, rfl⟩ : ∃ (p : Fin a) (q : Fin Q), i = ix2 p q := ⟨i 0, i 1, eq_ix2 i⟩
  exact add_bias_row_apply c3 b2 x b p q

/-- Two such sums agree at two entries when the matrices agree there and the biases agree at the entries' columns. -/
theorem addRow_congr_entry {a a' Q Q' : ℕ} (x : (⟨2, ![a, Q]⟩ : Shape).Idx → EReal) (x' : (⟨2, ![a', Q']⟩ : Shape).Idx → EReal)
    (b : (⟨1, ![Q]⟩ : Shape).Idx → EReal) (b' : (⟨1, ![Q']⟩ : Shape).Idx → EReal)
    (i : (⟨2, ![a, Q]⟩ : Shape).Idx) (j : (⟨2, ![a', Q']⟩ : Shape).Idx)
    (hx : x' j = x i) (hb : b' (ix1 (j 1)) = b (ix1 (i 1))) : addRow x' b' j = addRow x b i := by
  unfold addRow
  rw [hx, hb]

end Cert.Products

end
-- ==== Proof.Region0.lean ====
/-
  Region 0 of the kernel's program read as one array: the first dense layer's product.

  Each of the 25 grid points takes rows 2000·t … 2000·t + 1999 of `x` and the whole weight, and stores the product of
  that block of rows with the weight into the same rows of the result. An entry of a matrix product depends on the left
  operand only through its row, so the blocks are the restrictions of ONE function, the product of the whole `x` with the
  weight; the 25 blocks of rows cover the result array.
-/
import proofs.«116010_j87333864997319_2_alg».proof.Proof.Gen.KernelIdeal.Frame
import proofs.«116010_j87333864997319_2_alg».proof.Proof.LibMatProd
import proofs.«116010_j87333864997319_2_alg».proof.Proof.LibColumns
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.Products

namespace Cert.Products

/-- Two products agree at two entries when the rows read on the left and the columns read on the right agree. -/
theorem matProd_congr_entry {a a' k b b' : ℕ} (A : (⟨2, ![a, k]⟩ : Shape).Idx → EReal) (A' : (⟨2, ![a', k]⟩ : Shape).Idx → EReal)
    (B : (⟨2, ![k, b]⟩ : Shape).Idx → EReal) (B' : (⟨2, ![k, b']⟩ : Shape).Idx → EReal)
    (i : (⟨2, ![a, b]⟩ : Shape).Idx) (j : (⟨2, ![a', b']⟩ : Shape).Idx)
    (hA : ∀ l : Fin k, A' (ix2 (j 0) l) = A (ix2 (i 0) l)) (hB : ∀ l : Fin k, B' (ix2 l (j 1)) = B (ix2 l (i 1))) :
    matProd A' B' j = matProd A B i :=
  Finset.sum_congr rfl fun l _ => by rw [hA l, hB l]

end Cert.Products

namespace Cert.KernelIdeal.Blocks

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The body's value: its block of rows times the weight (the narrowing to bf16 is the identity on extended reals). -/
theorem pay0 (x0 : Vec Ideal S2000x128 .f32) (x1 : Vec Ideal S128x256 .bf16) : k0_pay1 x0 x1 = matProd x0 x1 := by
  unfold k0_pay1
  dsimp only
  rw [shapeCast_self]
  exact matmul_zero_eq dot_S2000x128_S128x256_S2000x256_1_0_0_1_n_n rfl rfl rfl rfl rfl rfl none _ _

/-- The index maps over the grid: windows 0 and 2 move down the rows with the point, window 1 stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` is rows 2000·t … of `x`. -/
theorem iblk0_0_apply (c : Dev nD) (t : Fin cfg0.N) (y : S2000x128.Idx) (k : S50000x128.Idx)
    (hk0 : (k 0).val = 2000 * t.val + (y 0).val) (hk1 : (k 1).val = (y 1).val) :
    (iblk0 V c 0 t : Vec Ideal S2000x128 .f32) y = (V c main_arg0 : S50000x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 128 + 1 * (y 1).val = (k 1).val; rw [e1, hk1]; omega

/-- Window 1's block at every point is the whole weight. -/
theorem iblk0_1_apply (c : Dev nD) (t : Fin cfg0.N) (y : S128x256.Idx) :
    (iblk0 V c 1 t : Vec Ideal S128x256 .bf16) y = (V c main_v28 : S128x256.Idx → EReal) y := by
  obtain ⟨-, -, e2, e3, -⟩ := idx_facts0 t
  unfold iblk0
  rw [View.read_apply]
  show V c main_v28 _ = V c main_v28 _
  congr 1
  funext a
  apply Fin.ext
  match a with
  | ⟨0, _⟩ => show win0_1.index t 0 * 128 + 1 * (y 0).val = (y 0).val; rw [e2]; omega
  | ⟨1, _⟩ => show win0_1.index t 1 * 256 + 1 * (y 1).val = (y 1).val; rw [e3]; omega

/-- What point `t` writes back is block `t` of the product of the whole `x` with the weight. -/
theorem flushed0 (c : Dev nD) (t : Fin cfg0.N) :
    (dat0 V c).flushed 2 t
      = ((cfg0.win 2).blk t).view.read (Elt Ideal) (matProd (V c main_arg0 : S50000x128.Idx → EReal) (V c main_v28 : S128x256.Idx → EReal)) := by
  show (cfg0.win 2).cut (grid0.coords t) ((dat0 V c).after 2 t) = _
  rw [after0_2]
  unfold out0_2
  rw [View.canon_unit_zero hz2]
  simp only [View.ld_unit_zero (S := S2000x128) hz2, View.ld_unit_zero (S := S128x256) hz2]
  rw [pay0]
  obtain ⟨-, -, -, -, e4, e5⟩ := idx_facts0 t
  funext j
  show matProd (iblk0 V c 0 t : Vec Ideal S2000x128 .f32) (iblk0 V c 1 t : Vec Ideal S128x256 .bf16) j
    = matProd (V c main_arg0 : S50000x128.Idx → EReal) (V c main_v28 : S128x256.Idx → EReal) (((cfg0.win 2).blk t).view.emb j)
  refine matProd_congr_entry _ _ _ _ _ j (fun l => ?_) (fun l => ?_)
  · refine iblk0_0_apply V c t _ _ ?_ rfl
    show win0_2.index t 0 * 2000 + 1 * (j 0).val = 2000 * t.val + (j 0).val
    rw [e4]; omega
  · refine (iblk0_1_apply V c t _).trans (congrArg (V c main_v28 : S128x256.Idx → EReal) ?_)
    funext a
    apply Fin.ext
    match a with
    | ⟨0, _⟩ => rfl
    | ⟨1, _⟩ => show (j 1).val = win0_2.index t 1 * 256 + 1 * (j 1).val; rw [e5]; omega

/-- An index of the result is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v29).slice (win0_2.rect t)).set ↔ _
  rw [View.set_slice_whole, Rect.mem_set_unit]
  exact Iff.rfl

/-- Every row of the result is in the block of the point its number divided by 2000 names. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t 0 * 2000 ≤ (i 0).val ∧ (i 0).val < win0_2.index t 0 * 2000 + 2000; rw [e4, ht]; omega
  | ⟨1, _⟩ => show win0_2.index t 1 * 256 ≤ (i 1).val ∧ (i 1).val < win0_2.index t 1 * 256 + 256; rw [e5]; omega

/-- Region 0 leaves, in its result array, the product of the whole `x` with the weight. -/
theorem final0 (c : Dev nD) :
    (dat0 V c).arrAt 2 cfg0.N = matProd (V c main_arg0 : S50000x128.Idx → EReal) (V c main_v28 : S128x256.Idx → EReal) :=
  (dat0 V c).arrAt_eq_of_cover 2 _ (fun t _ => flushed0 V c t) cover0

end Cert.KernelIdeal.Blocks

end
-- ==== Proof.Region1.lean ====
/-
  Region 1 of the kernel's program read as one array: the first layer finished and multiplied by the second weight.

  Each grid point takes rows 2000·t … of the aggregate over the real edges, of the first product and of the column of
  self-loop coefficients, the whole bias and the whole weight; it forms max (seg + coefficient · h + bias, 0) on its rows
  and stores the product of that with the weight into the same rows of the result. An entry of the finished activation
  depends only on its own row of the three row-blocked arrays, and an entry of a product on the left operand's row, so
  the blocks are the restrictions of ONE function of the whole arrays; the 25 blocks of rows cover the result.
-/
import proofs.«116010_j87333864997319_2_alg».proof.Proof.Gen.KernelIdeal.Frame
import proofs.«116010_j87333864997319_2_alg».proof.Proof.LibMatProd
import proofs.«116010_j87333864997319_2_alg».proof.Proof.LibFinishRows
import proofs.«116010_j87333864997319_2_alg».proof.Proof.Region0
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.Products

namespace Cert.KernelIdeal.Blocks

open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a; rfl

/-- The body's value: the finished activation of its rows times the weight. -/
theorem pay1 (v0 : Vec Ideal S2000x256 .f32) (v2 : Vec Ideal S2000x1 .f32) (v4 : Vec Ideal S2000x256 .f32)
    (v9 : Vec Ideal S256 .f32) (v16 : Vec Ideal S256x128 .bf16) :
    k1_pay1 v0 v2 v4 v9 v16 = matProd (finish (Ideal.ofBits .f32 0x00000000#32) v0 v4 v2 v9) v16 := by
  unfold k1_pay1
  dsimp only
  exact finish_matmul shapeCasts_S2000x256_S2000x256 shapeCasts_S2000x1_S2000x1 shapeCasts_S256_S1x256
    broadcasts_S2000x1_S2000x256 broadcasts_S1x256_S2000x256 dot_S2000x256_S256x128_S2000x128_1_0_0_1_n_n
    rfl rfl rfl rfl rfl rfl shapeCasts_S256x128_S256x128 bitsLt_bf16_f32 v0 v4 v2 v9 0x00000000#32 v16

theorem idx1_0 : ∀ t : Fin cfg1.N, win1_0.index t (0 : Fin 2) = t.val ∧ win1_0.index t (1 : Fin 2) = 0 :=
  (by decide +kernel : ∀ t : Fin grid1.N, _)

/-- Window 0's block at point `t` is rows 2000·t … of its array. -/
theorem iblk1_0_apply (c : Dev nD) (t : Fin cfg1.N) (y : S2000x256.Idx) (k : S50000x256.Idx)
    (hk0 : (k 0).val = 2000 * t.val + (y 0).val) (hk1 : (k 1).val = (y 1).val) :
    (iblk1 V c 0 t : Vec Ideal S2000x256 .f32) y = (V c main_v42 : S50000x256.Idx → EReal) k := by
  obtain ⟨e0, e1⟩ := idx1_0 t
  unfold iblk1
  rw [View.read_apply]
  show V c main_v42 _ = V c main_v42 _
  congr 1
  funext a
  apply Fin.ext
  match a with
  | ⟨0, _⟩ => show win1_0.index t 0 * 2000 + 1 * (y 0).val = (k 0).val; rw [e0, hk0]; omega
  | ⟨1, _⟩ => show win1_0.index t 1 * 256 + 1 * (y 1).val = (k 1).val; rw [e1, hk1]; omega

theorem idx1_1 : ∀ t : Fin cfg1.N, win1_1.index t (0 : Fin 2) = t.val ∧ win1_1.index t (1 : Fin 2) = 0 :=
  (by decide +kernel : ∀ t : Fin grid1.N, _)

/-- Window 1's block at point `t` is rows 2000·t … of its array. -/
theorem iblk1_1_apply (c : Dev nD) (t : Fin cfg1.N) (y : S2000x256.Idx) (k : S50000x256.Idx)
    (hk0 : (k 0).val = 2000 * t.val + (y 0).val) (hk1 : (k 1).val = (y 1).val) :
    (iblk1 V c 1 t : Vec Ideal S2000x256 .f32) y = (V c main_v29 : S50000x256.Idx → EReal) k := by
  obtain ⟨e0, e1⟩ := idx1_1 t
  unfold iblk1
  rw [View.read_apply]
  show V c main_v29 _ = V c main_v29 _
  congr 1
  funext a
  apply Fin.ext
  match a with
  | ⟨0, _⟩ => show win1_1.index t 0 * 2000 + 1 * (y 0).val = (k 0).val; rw [e0, hk0]; omega
  | ⟨1, _⟩ => show win1_1.index t 1 * 256 + 1 * (y 1).val = (k 1).val; rw [e1, hk1]; omega

theorem idx1_2 : ∀ t : Fin cfg1.N, win1_2.index t (0 : Fin 2) = t.val ∧ win1_2.index t (1 : Fin 2) = 0 :=
  (by decide +kernel : ∀ t : Fin grid1.N, _)

/-- Window 2's block at point `t` is rows 2000·t … of its array. -/
theorem iblk1_2_apply (c : Dev nD) (t : Fin cfg1.N) (y : S2000x1.Idx) (k : S50000x1.Idx)
    (hk0 : (k 0).val = 2000 * t.val + (y 0).val) (hk1 : (k 1).val = (y 1).val) :
    (iblk1 V c 2 t : Vec Ideal S2000x1 .f32) y = (V c main_v27 : S50000x1.Idx → EReal) k := by
  obtain ⟨e0, e1⟩ := idx1_2 t
  unfold iblk1
  rw [View.read_apply]
  show V c main_v27 _ = V c main_v27 _
  congr 1
  funext a
  apply Fin.ext
  match a with
  | ⟨0, _⟩ => show win1_2.index t 0 * 2000 + 1 * (y 0).val = (k 0).val; rw [e0, hk0]; omega
  | ⟨1, _⟩ => show win1_2.index t 1 * 1 + 1 * (y 1).val = (k 1).val; rw [e1, hk1]; omega

theorem idx1_3 : ∀ t : Fin cfg1.N, win1_3.index t (0 : Fin 1) = 0 :=
  (by decide +kernel : ∀ t : Fin grid1.N, _)

/-- Window 3's block at every point is its whole vector. -/
theorem iblk1_3_apply (c : Dev nD) (t : Fin cfg1.N) (y : S256.Idx) :
    (iblk1 V c 3 t : Vec Ideal S256 .f32) y = (V c main_arg3 : S256.Idx → EReal) y := by
  have e0 := idx1_3 t
  unfold iblk1
  rw [View.read_apply]
  show V c main_arg3 _ = V c main_arg3 _
  congr 1
  funext a
  apply Fin.ext
  match a with
  | ⟨0, _⟩ => show win1_3.index t 0 * 256 + 1 * (y 0).val = (y 0).val; rw [e0]; omega

theorem idx1_4 : ∀ t : Fin cfg1.N, win1_4.index t (0 : Fin 2) = 0 ∧ win1_4.index t (1 : Fin 2) = 0 :=
  (by decide +kernel : ∀ t : Fin grid1.N, _)

/-- Window 4's block at every point is its whole array. -/
theorem iblk1_4_apply (c : Dev nD) (t : Fin cfg1.N) (y : S256x128.Idx) (k : S256x128.Idx)
    (hk0 : (k 0).val = (y 0).val) (hk1 : (k 1).val = (y 1).val) :
    (iblk1 V c 4 t : Vec Ideal S256x128 .bf16) y = (V c main_v43 : S256x128.Idx → EReal) k := by
  obtain ⟨e0, e1⟩ := idx1_4 t
  unfold iblk1
  rw [View.read_apply]
  show V c main_v43 _ = V c main_v43 _
  congr 1
  funext a
  apply Fin.ext
  match a with
  | ⟨0, _⟩ => show win1_4.index t 0 * 256 + 1 * (y 0).val = (k 0).val; rw [e0, hk0]; omega
  | ⟨1, _⟩ => show win1_4.index t 1 * 128 + 1 * (y 1).val = (k 1).val; rw [e1, hk1]; omega

/-- What region 1 leaves: the finished first layer times the second weight, over the whole arrays. -/
def G1 (c : Dev nD) : S50000x128.Idx → EReal :=
  matProd (finish (Ideal.ofBits .f32 0x00000000#32) (V c main_v42 : S50000x256.Idx → EReal) (V c main_v29 : S50000x256.Idx → EReal)
    (V c main_v27 : S50000x1.Idx → EReal) (V c main_arg3 : S256.Idx → EReal)) (V c main_v43 : S256x128.Idx → EReal)

theorem idx1_5 : ∀ t : Fin cfg1.N, win1_5.index t (0 : Fin 2) = t.val ∧ win1_5.index t (1 : Fin 2) = 0 :=
  (by decide +kernel : ∀ t : Fin grid1.N, _)

/-- An index of the result is in point `t`'s block iff each coordinate is in the block's range on its axis. -/
theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v44).slice (win1_5.rect t)).set ↔ _
  rw [View.set_slice_whole, Rect.mem_set_unit]
  exact Iff.rfl

/-- Every row of the result is in the block of the point its number divided by 2000 names. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1⟩ := idx1_5 t
  refine ⟨t, flush1_5 t, ?_⟩
  rw [mem_blk1_5]
  intro a
  match a with
  | ⟨0, _⟩ => show win1_5.index t 0 * 2000 ≤ (i 0).val ∧ (i 0).val < win1_5.index t 0 * 2000 + 2000; rw [e0, ht]; omega
  | ⟨1, _⟩ => show win1_5.index t 1 * 128 ≤ (i 1).val ∧ (i 1).val < win1_5.index t 1 * 128 + 128; rw [e1]; omega

/-- What point `t` writes back is block `t` of that array. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S2000x1) hz2,
    View.ld_unit_zero (S := S256) hz1, View.ld_unit_zero (S := S256x128) hz2]
  rw [pay1]
  obtain ⟨e0, e1⟩ := idx1_5 t
  funext j
  show matProd (finish (Ideal.ofBits .f32 0x00000000#32) (iblk1 V c 0 t : Vec Ideal S2000x256 .f32)
        (iblk1 V c 1 t : Vec Ideal S2000x256 .f32) (iblk1 V c 2 t : Vec Ideal S2000x1 .f32)
        (iblk1 V c 3 t : Vec Ideal S256 .f32)) (iblk1 V c 4 t : Vec Ideal S256x128 .bf16) j
    = G1 V c (((cfg1.win 5).blk t).view.emb j)
  unfold G1
  have hrow : ((((cfg1.win 5).blk t).view.emb j) 0).val = 2000 * t.val + (j 0).val := by
    show win1_5.index t 0 * 2000 + 1 * (j 0).val = 2000 * t.val + (j 0).val
    rw [e0]; omega
  have hcol : ((((cfg1.win 5).blk t).view.emb j) 1).val = (j 1).val := by
    show win1_5.index t 1 * 128 + 1 * (j 1).val = (j 1).val
    rw [e1]; omega
  refine matProd_congr_entry _ _ _ _ _ j (fun l => ?_) (fun l => ?_)
  · refine finish_congr_entry _ _ _ _ _ _ _ _ _ _ _ l ?_ ?_ ?_ ?_
    · exact iblk1_0_apply V c t _ _ hrow rfl
    · exact iblk1_1_apply V c t _ _ hrow rfl
    · exact iblk1_2_apply V c t _ _ hrow rfl
    · exact iblk1_3_apply V c t _
  · exact iblk1_4_apply V c t _ _ rfl hcol

/-- Region 1 leaves that array in its result. -/
theorem final1 (c : Dev nD) : (dat1 V c).arrAt 5 cfg1.N = G1 V c :=
  (dat1 V c).arrAt_eq_of_cover 5 _ (fun t _ => flushed1 V c t) cover1_5

end Cert.KernelIdeal.Blocks

end
-- ==== Proof.Region2.lean ====
/-
  Region 2 of the kernel's program read as two arrays: the second layer finished and sent through the two heads.

  Each grid point takes rows 2000·t … of the second aggregate, of the second product and of the column of self-loop
  coefficients, the whole bias, and each head's whole weight and bias; it forms max (seg + coefficient · h + bias, 0) on
  its rows and stores, per head, the product of that with the head's weight plus the head's bias into the same rows of the
  head's result. As in region 1 the blocks are the restrictions of one function of the whole arrays per head, and the 25
  blocks of rows cover each result.
-/
import proofs.«116010_j87333864997319_2_alg».proof.Proof.Gen.KernelIdeal.Frame
import proofs.«116010_j87333864997319_2_alg».proof.Proof.LibMatProd
import proofs.«116010_j87333864997319_2_alg».proof.Proof.LibFinishRows
import proofs.«116010_j87333864997319_2_alg».proof.Proof.Region1
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.Products

namespace Cert.KernelIdeal.Blocks

open Cert.KernelIdeal Cert.KernelIdeal.Gen

variable (V : (c : Dev nD) → (b : Ref sig .tc) → Buf (Elt Ideal) ((c : Thread nD τ).loc b))

/-- The body's value for this head: the finished activation of its rows times the head's weight, plus the head's bias. -/
theorem pay2_mu (v0 : Vec Ideal S2000x128 .f32) (v2 : Vec Ideal S2000x1 .f32) (v4 : Vec Ideal S2000x128 .f32)
    (v9 : Vec Ideal S128 .f32) (v16 : Vec Ideal S128x128 .bf16) (v19 : Vec Ideal S128 .f32) :
    k2_pay2 v0 v2 v4 v9 v16 v19
      = addRow (matProd (finish (Ideal.ofBits .f32 0x00000000#32) v0 v4 v2 v9) v16) v19 := by
  unfold k2_pay2 k2_pay1
  dsimp only
  have hm := finish_matmul shapeCasts_S2000x128_S2000x128 shapeCasts_S2000x1_S2000x1 shapeCasts_S128_S1x128
    broadcasts_S2000x1_S2000x128 broadcasts_S1x128_S2000x128 dot_S2000x128_S128x128_S2000x128_1_0_0_1_n_n
    rfl rfl rfl rfl rfl rfl shapeCasts_S128x128_S128x128 bitsLt_bf16_f32 v0 v4 v2 v9 0x00000000#32 v16
  exact (congrArg (fun M : FVec Ideal S2000x128 .f32 =>
      addf M (broadcastTo S2000x128 (shapeCast S1x128 v19 shapeCasts_S128_S1x128) broadcasts_S1x128_S2000x128)) hm).trans
    (add_bias_row shapeCasts_S128_S1x128 broadcasts_S1x128_S2000x128 _ v19)

/-- The body's value for this head: the finished activation of its rows times the head's weight, plus the head's bias. -/
theorem pay2_lv (v0 : Vec Ideal S2000x128 .f32) (v2 : Vec Ideal S2000x1 .f32) (v4 : Vec Ideal S2000x128 .f32)
    (v9 : Vec Ideal S128 .f32) (v24 : Vec Ideal S128x128 .bf16) (v27 : Vec Ideal S128 .f32) :
    k2_pay3 v0 v2 v4 v9 v24 v27
      = addRow (matProd (finish (Ideal.ofBits .f32 0x00000000#32) v0 v4 v2 v9) v24) v27 := by
  unfold k2_pay3 k2_pay1
  dsimp only
  have hm := finish_matmul shapeCasts_S2000x128_S2000x128 shapeCasts_S2000x1_S2000x1 shapeCasts_S128_S1x128
    broadcasts_S2000x1_S2000x128 broadcasts_S1x128_S2000x128 dot_S2000x128_S128x128_S2000x128_1_0_0_1_n_n
    rfl rfl rfl rfl rfl rfl shapeCasts_S128x128_S128x128 bitsLt_bf16_f32 v0 v4 v2 v9 0x00000000#32 v24
  exact (congrArg (fun M : FVec Ideal S2000x128 .f32 =>
      addf M (broadcastTo S2000x128 (shapeCast S1x128 v27 shapeCasts_S128_S1x128) broadcasts_S1x128_S2000x128)) hm).trans
    (add_bias_row shapeCasts_S128_S1x128 broadcasts_S1x128_S2000x128 _ v27)

theorem idx2_0 : ∀ t : Fin cfg2.N, win2_0.index t (0 : Fin 2) = t.val ∧ win2_0.index t (1 : Fin 2) = 0 :=
  (by decide +kernel : ∀ t : Fin grid2.N, _)

/-- Window 0's block at point `t` is rows 2000·t … of its array. -/
theorem iblk2_0_apply (c : Dev nD) (t : Fin cfg2.N) (y : S2000x128.Idx) (k : S50000x128.Idx)
    (hk0 : (k 0).val = 2000 * t.val + (y 0).val) (hk1 : (k 1).val = (y 1).val) :
    (iblk2 V c 0 t : Vec Ideal S2000x128 .f32) y = (V c main_v57 : S50000x128.Idx → EReal) k := by
  obtain ⟨e0, e1⟩ := idx2_0 t
  unfold iblk2
  rw [View.read_apply]
  show V c main_v57 _ = V c main_v57 _
  congr 1
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

theorem idx2_1 : ∀ t : Fin cfg2.N, win2_1.index t (0 : Fin 2) = t.val ∧ win2_1.index t (1 : Fin 2) = 0 :=
  (by decide +kernel : ∀ t : Fin grid2.N, _)

/-- Window 1's block at point `t` is rows 2000·t … of its array. -/
theorem iblk2_1_apply (c : Dev nD) (t : Fin cfg2.N) (y : S2000x128.Idx) (k : S50000x128.Idx)
    (hk0 : (k 0).val = 2000 * t.val + (y 0).val) (hk1 : (k 1).val = (y 1).val) :
    (iblk2 V c 1 t : Vec Ideal S2000x128 .f32) y = (V c main_v44 : S50000x128.Idx → EReal) k := by
  obtain ⟨e0, e1⟩ := idx2_1 t
  unfold iblk2
  rw [View.read_apply]
  show V c main_v44 _ = V c main_v44 _
  congr 1
  funext a
  apply Fin.ext
  match a with
  | ⟨0, _⟩ => show win2_1.index t 0 * 2000 + 1 * (y 0).val = (k 0).val; rw [e0, hk0]; omega
  | ⟨1, _⟩ => show win2_1.index t 1 * 128 + 1 * (y 1).val = (k 1).val; rw [e1, hk1]; omega

theorem idx2_2 : ∀ t : Fin cfg2.N, win2_2.index t (0 : Fin 2) = t.val ∧ win2_2.index t (1 : Fin 2) = 0 :=
  (by decide +kernel : ∀ t : Fin grid2.N, _)

/-- Window 2's block at point `t` is rows 2000·t … of its array. -/
theorem iblk2_2_apply (c : Dev nD) (t : Fin cfg2.N) (y : S2000x1.Idx) (k : S50000x1.Idx)
    (hk0 : (k 0).val = 2000 * t.val + (y 0).val) (hk1 : (k 1).val = (y 1).val) :
    (iblk2 V c 2 t : Vec Ideal S2000x1 .f32) y = (V c main_v27 : S50000x1.Idx → EReal) k := by
  obtain ⟨e0, e1⟩ := idx2_2 t
  unfold iblk2
  rw [View.read_apply]
  show V c main_v27 _ = V c main_v27 _
  congr 1
  funext a
  apply Fin.ext
  match a with
  | ⟨0, _⟩ => show win2_2.index t 0 * 2000 + 1 * (y 0).val = (k 0).val; rw [e0, hk0]; omega
  | ⟨1, _⟩ => show win2_2.index t 1 * 1 + 1 * (y 1).val = (k 1).val; rw [e1, hk1]; omega

theorem idx2_3 : ∀ t : Fin cfg2.N, win2_3.index t (0 : Fin 1) = 0 :=
  (by decide +kernel : ∀ t : Fin grid2.N, _)

/-- Window 3's block at every point is its whole vector. -/
theorem iblk2_3_apply (c : Dev nD) (t : Fin cfg2.N) (y : S128.Idx) :
    (iblk2 V c 3 t : Vec Ideal S128 .f32) y = (V c main_arg5 : S128.Idx → EReal) y := by
  have e0 := idx2_3 t
  unfold iblk2
  rw [View.read_apply]
  show V c main_arg5 _ = V c main_arg5 _
  congr 1
  funext a
  apply Fin.ext
  match a with
  | ⟨0, _⟩ => show win2_3.index t 0 * 128 + 1 * (y 0).val = (y 0).val; rw [e0]; omega

theorem idx2_4 : ∀ t : Fin cfg2.N, win2_4.index t (0 : Fin 2) = 0 ∧ win2_4.index t (1 : Fin 2) = 0 :=
  (by decide +kernel : ∀ t : Fin grid2.N, _)

/-- Window 4's block at every point is its whole array. -/
theorem iblk2_4_apply (c : Dev nD) (t : Fin cfg2.N) (y : S128x128.Idx) (k : S128x128.Idx)
    (hk0 : (k 0).val = (y 0).val) (hk1 : (k 1).val = (y 1).val) :
    (iblk2 V c 4 t : Vec Ideal S128x128 .bf16) y = (V c main_v58 : S128x128.Idx → EReal) k := by
  obtain ⟨e0, e1⟩ := idx2_4 t
  unfold iblk2
  rw [View.read_apply]
  show V c main_v58 _ = V c main_v58 _
  congr 1
  funext a
  apply Fin.ext
  match a with
  | ⟨0, _⟩ => show win2_4.index t 0 * 128 + 1 * (y 0).val = (k 0).val; rw [e0, hk0]; omega
  | ⟨1, _⟩ => show win2_4.index t 1 * 128 + 1 * (y 1).val = (k 1).val; rw [e1, hk1]; omega

theorem idx2_5 : ∀ t : Fin cfg2.N, win2_5.index t (0 : Fin 1) = 0 :=
  (by decide +kernel : ∀ t : Fin grid2.N, _)

/-- Window 5's block at every point is its whole vector. -/
theorem iblk2_5_apply (c : Dev nD) (t : Fin cfg2.N) (y : S128.Idx) :
    (iblk2 V c 5 t : Vec Ideal S128 .f32) y = (V c main_arg7 : S128.Idx → EReal) y := by
  have e0 := idx2_5 t
  unfold iblk2
  rw [View.read_apply]
  show V c main_arg7 _ = V c main_arg7 _
  congr 1
  funext a
  apply Fin.ext
  match a with
  | ⟨0, _⟩ => show win2_5.index t 0 * 128 + 1 * (y 0).val = (y 0).val; rw [e0]; omega

theorem idx2_6 : ∀ t : Fin cfg2.N, win2_6.index t (0 : Fin 2) = 0 ∧ win2_6.index t (1 : Fin 2) = 0 :=
  (by decide +kernel : ∀ t : Fin grid2.N, _)

/-- Window 6's block at every point is its whole array. -/
theorem iblk2_6_apply (c : Dev nD) (t : Fin cfg2.N) (y : S128x128.Idx) (k : S128x128.Idx)
    (hk0 : (k 0).val = (y 0).val) (hk1 : (k 1).val = (y 1).val) :
    (iblk2 V c 6 t : Vec Ideal S128x128 .bf16) y = (V c main_v59 : S128x128.Idx → EReal) k := by
  obtain ⟨e0, e1⟩ := idx2_6 t
  unfold iblk2
  rw [View.read_apply]
  show V c main_v59 _ = V c main_v59 _
  congr 1
  funext a
  apply Fin.ext
  match a with
  | ⟨0, _⟩ => show win2_6.index t 0 * 128 + 1 * (y 0).val = (k 0).val; rw [e0, hk0]; omega
  | ⟨1, _⟩ => show win2_6.index t 1 * 128 + 1 * (y 1).val = (k 1).val; rw [e1, hk1]; omega

theorem idx2_7 : ∀ t : Fin cfg2.N, win2_7.index t (0 : Fin 1) = 0 :=
  (by decide +kernel : ∀ t : Fin grid2.N, _)

/-- Window 7's block at every point is its whole vector. -/
theorem iblk2_7_apply (c : Dev nD) (t : Fin cfg2.N) (y : S128.Idx) :
    (iblk2 V c 7 t : Vec Ideal S128 .f32) y = (V c main_arg9 : S128.Idx → EReal) y := by
  have e0 := idx2_7 t
  unfold iblk2
  rw [View.read_apply]
  show V c main_arg9 _ = V c main_arg9 _
  congr 1
  funext a
  apply Fin.ext
  match a with
  | ⟨0, _⟩ => show win2_7.index t 0 * 128 + 1 * (y 0).val = (y 0).val; rw [e0]; omega

/-- What region 2 leaves in its first result: the finished second layer times the head's weight, plus the head's bias, over
    the whole arrays. -/
def G2mu (c : Dev nD) : S50000x128.Idx → EReal :=
  addRow (matProd (finish (Ideal.ofBits .f32 0x00000000#32) (V c main_v57 : S50000x128.Idx → EReal) (V c main_v44 : S50000x128.Idx → EReal)
    (V c main_v27 : S50000x1.Idx → EReal) (V c main_arg5 : S128.Idx → EReal)) (V c main_v58 : S128x128.Idx → EReal))
    (V c main_arg7 : S128.Idx → EReal)

/-- What region 2 leaves in its second result: the finished second layer times the head's weight, plus the head's bias, over
    the whole arrays. -/
def G2lv (c : Dev nD) : S50000x128.Idx → EReal :=
  addRow (matProd (finish (Ideal.ofBits .f32 0x00000000#32) (V c main_v57 : S50000x128.Idx → EReal) (V c main_v44 : S50000x128.Idx → EReal)
    (V c main_v27 : S50000x1.Idx → EReal) (V c main_arg5 : S128.Idx → EReal)) (V c main_v59 : S128x128.Idx → EReal))
    (V c main_arg9 : S128.Idx → EReal)

theorem idx2_8 : ∀ t : Fin cfg2.N, win2_8.index t (0 : Fin 2) = t.val ∧ win2_8.index t (1 : Fin 2) = 0 :=
  (by decide +kernel : ∀ t : Fin grid2.N, _)

/-- An index of the result is in point `t`'s block iff each coordinate is in the block's range on its axis. -/
theorem mem_blk2_8 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v60_0).slice (win2_8.rect t)).set ↔ _
  rw [View.set_slice_whole, Rect.mem_set_unit]
  exact Iff.rfl

/-- Every row of the result is in the block of the point its number divided by 2000 names. -/
theorem cover2_8 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨e0, e1⟩ := idx2_8 t
  refine ⟨t, flush2_8 t, ?_⟩
  rw [mem_blk2_8]
  intro a
  match a with
  | ⟨0, _⟩ => show win2_8.index t 0 * 2000 ≤ (i 0).val ∧ (i 0).val < win2_8.index t 0 * 2000 + 2000; rw [e0, ht]; omega
  | ⟨1, _⟩ => show win2_8.index t 1 * 128 ≤ (i 1).val ∧ (i 1).val < win2_8.index t 1 * 128 + 128; rw [e1]; omega

theorem idx2_9 : ∀ t : Fin cfg2.N, win2_9.index t (0 : Fin 2) = t.val ∧ win2_9.index t (1 : Fin 2) = 0 :=
  (by decide +kernel : ∀ t : Fin grid2.N, _)

/-- An index of the result is in point `t`'s block iff each coordinate is in the block's range on its axis. -/
theorem mem_blk2_9 (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v60_1).slice (win2_9.rect t)).set ↔ _
  rw [View.set_slice_whole, Rect.mem_set_unit]
  exact Iff.rfl

/-- Every row of the result is in the block of the point its number divided by 2000 names. -/
theorem cover2_9 (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨e0, e1⟩ := idx2_9 t
  refine ⟨t, flush2_9 t, ?_⟩
  rw [mem_blk2_9]
  intro a
  match a with
  | ⟨0, _⟩ => show win2_9.index t 0 * 2000 ≤ (i 0).val ∧ (i 0).val < win2_9.index t 0 * 2000 + 2000; rw [e0, ht]; omega
  | ⟨1, _⟩ => show win2_9.index t 1 * 128 ≤ (i 1).val ∧ (i 1).val < win2_9.index t 1 * 128 + 128; rw [e1]; omega

/-- What point `t` writes back through window 8 is block `t` of that array. -/
theorem flushed2_8 (c : Dev nD) (t : Fin cfg2.N) :
    (dat2 V c).flushed 8 t = ((cfg2.win 8).blk t).view.read (Elt Ideal) (G2mu V c) := by
  show (cfg2.win 8).cut (grid2.coords t) ((dat2 V c).after 8 t) = _
  rw [after2_8]
  unfold out2_8
  rw [View.canon_unit_zero hz2]
  simp only [View.ld_unit_zero (S := S2000x128) hz2, View.ld_unit_zero (S := S2000x1) hz2,
    View.ld_unit_zero (S := S128) hz1, View.ld_unit_zero (S := S128x128) hz2]
  rw [pay2_mu]
  obtain ⟨e0, e1⟩ := idx2_8 t
  funext j
  show addRow (matProd (finish (Ideal.ofBits .f32 0x00000000#32) (iblk2 V c 0 t : Vec Ideal S2000x128 .f32)
        (iblk2 V c 1 t : Vec Ideal S2000x128 .f32) (iblk2 V c 2 t : Vec Ideal S2000x1 .f32)
        (iblk2 V c 3 t : Vec Ideal S128 .f32)) (iblk2 V c 4 t : Vec Ideal S128x128 .bf16))
        (iblk2 V c 5 t : Vec Ideal S128 .f32) j
    = G2mu V c (((cfg2.win 8).blk t).view.emb j)
  unfold G2mu
  have hrow : ((((cfg2.win 8).blk t).view.emb j) 0).val = 2000 * t.val + (j 0).val := by
    show win2_8.index t 0 * 2000 + 1 * (j 0).val = 2000 * t.val + (j 0).val
    rw [e0]; omega
  have hcol : ((((cfg2.win 8).blk t).view.emb j) 1).val = (j 1).val := by
    show win2_8.index t 1 * 128 + 1 * (j 1).val = (j 1).val
    rw [e1]; omega
  refine addRow_congr_entry _ _ _ _ _ j ?_ ?_
  · refine matProd_congr_entry _ _ _ _ _ j (fun l => ?_) (fun l => ?_)
    · refine finish_congr_entry _ _ _ _ _ _ _ _ _ _ _ l ?_ ?_ ?_ ?_
      · exact iblk2_0_apply V c t _ _ hrow rfl
      · exact iblk2_1_apply V c t _ _ hrow rfl
      · exact iblk2_2_apply V c t _ _ hrow rfl
      · exact iblk2_3_apply V c t _
    · exact iblk2_4_apply V c t _ _ rfl hcol
  · refine (iblk2_5_apply V c t _).trans (congrArg (V c main_arg7 : S128.Idx → EReal) ?_)
    funext a
    apply Fin.ext
    match a with
    | ⟨0, _⟩ => exact hcol.symm

/-- Region 2 leaves that array in its result 8. -/
theorem final2_8 (c : Dev nD) : (dat2 V c).arrAt 8 cfg2.N = G2mu V c :=
  (dat2 V c).arrAt_eq_of_cover 8 _ (fun t _ => flushed2_8 V c t) cover2_8

/-- What point `t` writes back through window 9 is block `t` of that array. -/
theorem flushed2_9 (c : Dev nD) (t : Fin cfg2.N) :
    (dat2 V c).flushed 9 t = ((cfg2.win 9).blk t).view.read (Elt Ideal) (G2lv V c) := by
  show (cfg2.win 9).cut (grid2.coords t) ((dat2 V c).after 9 t) = _
  rw [after2_9]
  unfold out2_9
  rw [View.canon_unit_zero hz2]
  simp only [View.ld_unit_zero (S := S2000x128) hz2, View.ld_unit_zero (S := S2000x1) hz2,
    View.ld_unit_zero (S := S128) hz1, View.ld_unit_zero (S := S128x128) hz2]
  rw [pay2_lv]
  obtain ⟨e0, e1⟩ := idx2_9 t
  funext j
  show addRow (matProd (finish (Ideal.ofBits .f32 0x00000000#32) (iblk2 V c 0 t : Vec Ideal S2000x128 .f32)
        (iblk2 V c 1 t : Vec Ideal S2000x128 .f32) (iblk2 V c 2 t : Vec Ideal S2000x1 .f32)
        (iblk2 V c 3 t : Vec Ideal S128 .f32)) (iblk2 V c 6 t : Vec Ideal S128x128 .bf16))
        (iblk2 V c 7 t : Vec Ideal S128 .f32) j
    = G2lv V c (((cfg2.win 9).blk t).view.emb j)
  unfold G2lv
  have hrow : ((((cfg2.win 9).blk t).view.emb j) 0).val = 2000 * t.val + (j 0).val := by
    show win2_9.index t 0 * 2000 + 1 * (j 0).val = 2000 * t.val + (j 0).val
    rw [e0]; omega
  have hcol : ((((cfg2.win 9).blk t).view.emb j) 1).val = (j 1).val := by
    show win2_9.index t 1 * 128 + 1 * (j 1).val = (j 1).val
    rw [e1]; omega
  refine addRow_congr_entry _ _ _ _ _ j ?_ ?_
  · refine matProd_congr_entry _ _ _ _ _ j (fun l => ?_) (fun l => ?_)
    · refine finish_congr_entry _ _ _ _ _ _ _ _ _ _ _ l ?_ ?_ ?_ ?_
      · exact iblk2_0_apply V c t _ _ hrow rfl
      · exact iblk2_1_apply V c t _ _ hrow rfl
      · exact iblk2_2_apply V c t _ _ hrow rfl
      · exact iblk2_3_apply V c t _
    · exact iblk2_6_apply V c t _ _ rfl hcol
  · refine (iblk2_7_apply V c t _).trans (congrArg (V c main_arg9 : S128.Idx → EReal) ?_)
    funext a
    apply Fin.ext
    match a with
    | ⟨0, _⟩ => exact hcol.symm

/-- Region 2 leaves that array in its result 9. -/
theorem final2_9 (c : Dev nD) : (dat2 V c).arrAt 9 cfg2.N = G2lv V c :=
  (dat2 V c).arrAt_eq_of_cover 9 _ (fun t _ => flushed2_9 V c t) cover2_9

end Cert.KernelIdeal.Blocks

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«116010_j87333864997319_2_alg».proof.Proof.LibRowIndex
import proofs.«116010_j87333864997319_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«116010_j87333864997319_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibGcnLayer.lean ====
/-
  One graph-convolution aggregation, in its two arrangements, on the extended reals.

  Data: a feature matrix `h : [N, D]`, a per-node scale `dis : [N]`, and for each of `E` edges a source row number
  `rw e` (already wrapped) and a target row number `c e`.  A row number is used as the hosts' gather uses it —
  read signed and clamped into `[0, N − 1]` — and as the accumulating scatter uses it — an edge whose target,
  read signed, is not a row is dropped.

  * scale first:  `out (n, d) = dis n · Σ_{e : c e = n} (h (rw e, d) · dis (rw e))`
    (the features are scaled by `dis`, gathered, summed per target, and the sums scaled by `dis` again);
  * weigh the edges:  `out (n, d) = Σ_{e : c e = n} h (rw e, d) · (dis (rw e) · dis (cw e))`
    (each gathered row is weighted by the product of the two ends' scales, `cw e` the wrapped target).

  On the summed set the target's scale is the constant `dis n` (an in-range row number survives the wrap and the
  clamp), so the two agree as soon as that factor may be moved across the sum: it is a nonnegative real.  The
  terms themselves may be infinite.  Stated for any extents `N`, `D`, `E`, over the hosts' row gather, vector gather
  and accumulating row scatter; it builds on the row-gather / segment-sum lemmas, the vector-gather lemma and the
  nonnegative-factor law for sums of extended reals, which it imports.
-/
import proofs.«116010_j87333864997319_2_alg».proof.Proof.LibRowScatterSum
import proofs.«116010_j87333864997319_2_alg».proof.Proof.LibVecIndex
import proofs.«116010_j87333864997319_2_alg».proof.Proof.LibERealSum

noncomputable section

namespace Cert.Gcn

open Idealize.ShloMosaic Idealize.ShloMosaic.ValueIdx Idealize.ShloMosaic.RowIndex

variable (N D E : Nat)

/-- A vector of extended reals all of whose entries are nonnegative reals. -/
def NonnegReal {s : Shape} (v : s.Idx → EReal) : Prop := ∀ i, ∃ r : ℝ, 0 ≤ r ∧ v i = (r : EReal)

/-- The wrapped form of a column of row numbers: a negative one has `off` added. -/
def IsWrapOf (off : BitVec 32) (cw c : IVec ⟨1, ![E]⟩ 32) : Prop :=
  ∀ e : Fin E, cw (ix1 e) = Scalar.select (IntOp.cmpi .slt (c (ix1 e)) 0#32) (IntOp.addi (c (ix1 e)) off) (c (ix1 e))

/-- The row a gather reads for edge `e`: the row number read signed, clamped into `[0, N − 1]`. -/
def rowOf (hN : 0 < N) (v : IVec ⟨1, ![E]⟩ 32) (e : Fin E) : Fin N :=
  ⟨min (v (ix1 e)).toInt.toNat (N - 1), Nat.lt_of_le_of_lt (Nat.min_le_right _ _) (by omega)⟩

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))

/-- The per-node scale spread over the columns of `[N, D]`. -/
def spread (dis : FVec Ideal ⟨1, ![N]⟩ .f32) : FVec Ideal ⟨2, ![N, D]⟩ .f32 :=
  broadcastInDim ⟨2, ![N, D]⟩ (![0, 1] : Fin 2 → Fin 2) hb2 (broadcastInDim ⟨2, ![N, 1]⟩ (![0] : Fin 1 → Fin 2) hb1 dis)

/-- A vector of row numbers as the column `[E, 1]` the gather and the scatter take. -/
def col (v : IVec ⟨1, ![E]⟩ 32) : IVec ⟨2, ![E, 1]⟩ 32 :=
  broadcastInDim ⟨2, ![E, 1]⟩ (![0] : Fin 1 → Fin 2) hbE v

/-- Scale first: scale, gather, sum per target onto `z`, scale again. -/
def scaleFirst (z h : FVec Ideal ⟨2, ![N, D]⟩ .f32) (dis : FVec Ideal ⟨1, ![N]⟩ .f32) (rw c : IVec ⟨1, ![E]⟩ 32) :
    FVec Ideal ⟨2, ![N, D]⟩ .f32 :=
  mulf (spread N D hb1 hb2 dis)
    (Host.scatterAdd (rowScatter N D E swf) z (col E hbE c)
      (Host.gather (rowsDims N D E gwf) (mulf h (spread N D hb1 hb2 dis)) (col E hbE rw)))

/-- Weigh the edges: gather, weigh each row by the product of its two ends' scales, sum per target onto `z`. -/
def weighEdges (z h : FVec Ideal ⟨2, ![N, D]⟩ .f32) (dis : FVec Ideal ⟨1, ![N]⟩ .f32) (rw cw c : IVec ⟨1, ![E]⟩ 32) :
    FVec Ideal ⟨2, ![N, D]⟩ .f32 :=
  Host.scatterAdd (rowScatter N D E swf) z (col E hbE c)
    (mulf (Host.gather (rowsDims N D E gwf) h (col E hbE rw))
      (broadcastInDim ⟨2, ![E, D]⟩ (![0, 1] : Fin 2 → Fin 2) hbED
        (broadcastInDim ⟨2, ![E, 1]⟩ (![0] : Fin 1 → Fin 2) hbE
          (mulf (Host.gather (vecDims N E vwf) dis (col E hbE rw)) (Host.gather (vecDims N E vwf) dis (col E hbE cw))))))

theorem col_atRow (v : IVec ⟨1, ![E]⟩ 32) (e : Fin E) : col E hbE v (atRow e) = v (ix1 e) :=
  broadcastInDim_a_a1_apply v hbE e _

theorem spread_apply (dis : FVec Ideal ⟨1, ![N]⟩ .f32) (n : Fin N) (d : Fin D) :
    spread N D hb1 hb2 dis (ix2 n d) = dis (ix1 n) :=
  broadcastInDim_column_apply dis hb1 hb2 n d

/-- Scale first, read at `(n, d)`. -/
theorem scaleFirst_apply (z h : FVec Ideal ⟨2, ![N, D]⟩ .f32) (dis : FVec Ideal ⟨1, ![N]⟩ .f32)
    (rw c : IVec ⟨1, ![E]⟩ 32) (n : Fin N) (d : Fin D) :
    scaleFirst N D E gwf swf hb1 hb2 hbE z h dis rw c (ix2 n d)
      = (z (ix2 n d) + ∑ e ∈ rowsTo E (col E hbE c) n.val,
          h (ix2 (rowOf N E hN rw e) d) * dis (ix1 (rowOf N E hN rw e))) * dis (ix1 n) := by
  unfold scaleFirst
  show spread N D hb1 hb2 dis (ix2 n d) * Host.scatterAdd (rowScatter N D E swf) z (col E hbE c) _ (ix2 n d) = _
  rw [spread_apply, scatterAdd_rows_apply, mul_comm]
  refine congrArg (fun S => (z (ix2 n d) + S) * dis (ix1 n)) (Finset.sum_congr rfl fun e _ => ?_)
  rw [gather_rows_apply N D E hN gwf, col_atRow]
  show h (ix2 _ d) * spread N D hb1 hb2 dis (ix2 _ d) = _
  rw [spread_apply]
  rfl

/-- Weigh the edges, read at `(n, d)`. -/
theorem weighEdges_apply (z h : FVec Ideal ⟨2, ![N, D]⟩ .f32) (dis : FVec Ideal ⟨1, ![N]⟩ .f32)
    (rw cw c : IVec ⟨1, ![E]⟩ 32) (n : Fin N) (d : Fin D) :
    weighEdges N D E gwf swf vwf hbE hbED z h dis rw cw c (ix2 n d)
      = z (ix2 n d) + ∑ e ∈ rowsTo E (col E hbE c) n.val,
          h (ix2 (rowOf N E hN rw e) d) * (dis (ix1 (rowOf N E hN rw e)) * dis (ix1 (rowOf N E hN cw e))) := by
  unfold weighEdges
  rw [scatterAdd_rows_apply]
  refine congrArg (z (ix2 n d) + ·) (Finset.sum_congr rfl fun e _ => ?_)
  show Host.gather (rowsDims N D E gwf) h (col E hbE rw) (ix2 e d) * broadcastInDim _ _ hbED _ (ix2 e d) = _
  rw [gather_rows_apply N D E hN gwf, col_atRow, broadcastInDim_column_apply _ hbE hbED e d]
  show _ * (Host.gather (vecDims N E vwf) dis (col E hbE rw) (ix1 e) * Host.gather (vecDims N E vwf) dis (col E hbE cw) (ix1 e)) = _
  rw [gather_vec_apply N E hN vwf, gather_vec_apply N E hN vwf, col_atRow, col_atRow]
  rfl

include hN in
/-- The two arrangements agree when the scale is a nonnegative real at every node and both sums start from zero. -/
theorem scaleFirst_eq_weighEdges (off : BitVec 32) (z z' h : FVec Ideal ⟨2, ![N, D]⟩ .f32)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c) :
    scaleFirst N D E gwf swf hb1 hb2 hbE z h dis rw c = weighEdges N D E gwf swf vwf hbE hbED z' h dis rw cw c := by
  funext i
  obtain ⟨n, d, rfl⟩ : ∃ (n : Fin N) (d : Fin D), i = ix2 n d := ⟨i 0, i 1, eq_ix2 i⟩
  rw [scaleFirst_apply N D E hN, weighEdges_apply N D E hN, hz, hz']
  refine ERealSum.scaled_sum_eq _ _ _ _ (hdis (ix1 n)) fun e he => ?_
  have hto : (c (ix1 e)).toInt = (n.val : Int) := by
    have := (Finset.mem_filter.mp he).2
    rwa [col_atRow] at this
  have hrow : rowOf N E hN cw e = n := by
    apply Fin.ext
    show min (cw (ix1 e)).toInt.toNat (N - 1) = n.val
    rw [hcw e]
    exact wrap_clamp_of_toInt_eq (c (ix1 e)) off n.val n.isLt hto
  rw [hrow]

end

end Cert.Gcn

end
-- ==== Proof.KernelValue.lean ====
/-
  The kernel's program read from its last boundary back to the arguments: each result array as one function of the
  argument arrays.

  The program is three kernel regions among three stretches of host operations. Reading it backwards: a result of region
  2 is region 2's function (`G2mu` / `G2lv`) of the buffers region 2 is entered with; of those, the second aggregate is
  the host's gather – weigh – scatter-add over the real edges of region 1's result, which is region 1's function of the
  buffers it is entered with; and so on down to the first product. The edge vectors, the degree scale, the edge weights and
  the column of self-loop coefficients are computed once, before the first region, and no later operation writes them: at
  every later boundary they hold what they held there.
  The stage functions are stated with the aggregate as one function (`weighEdges`) and the finished layer as one function
  (`finish`), the forms the comparison with the reference is made in.
-/
import proofs.«116010_j87333864997319_2_alg».proof.Proof.Region2
import proofs.«116010_j87333864997319_2_alg».proof.Proof.LibGcnLayer
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.RowIndex
open Cert.Products Cert.Gcn

namespace Cert.KernelIdeal.Stages

open Cert.KernelIdeal Cert.KernelIdeal.Gen Cert.KernelIdeal.Blocks

/-! ## The stage functions -/

/-- The edges' source row numbers: row 0 of the edge list. -/
def srcK (ei : IVec S2x800000 32) : IVec S800000 32 :=
  shapeCast S800000 (extractStridedSlice S1x800000 ![0, 0] ei slices_S2x800000_S1x800000_0_0) shapeCasts_S1x800000_S800000

/-- The edges' target row numbers: row 1 of the edge list. -/
def dstK (ei : IVec S2x800000 32) : IVec S800000 32 :=
  shapeCast S800000 (extractStridedSlice S1x800000 ![1, 0] ei slices_S2x800000_S1x800000_1_0) shapeCasts_S1x800000_S800000

/-- Row numbers with the negative ones wrapped (a negative number has the node count added). -/
def wrapK (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The degree scale: rsqrt of (the number of edges into the node, plus one for its self-loop). -/
def dinvK (ei : IVec S2x800000 32) : FVec Ideal S50000 .f32 :=
  Host.rsqrt (addf (Host.scatterAdd (vecScatter 50000 800000 scatter_S50000_S800000x1_S800000_n_0_0_1_wf)
      (broadcastInDim S50000 ![] bcast_S_S50000 (constant S_ .f32 0x00000000#32))
      (col 800000 bcast_S800000_S800000x1_0 (dstK ei))
      (broadcastInDim S800000 ![] bcast_S_S800000 (constant S_ .f32 0x3F800000#32)))
    (broadcastInDim S50000 ![] bcast_S_S50000 (constant S_ .f32 0x3F800000#32)))

/-- The edge weights: the scale at the edge's source times the scale at its target. -/
def normK (ei : IVec S2x800000 32) : FVec Ideal S800000 .f32 :=
  mulf (Host.gather (vecDims 50000 800000 gather_S50000_S800000x1_S800000_n_0_n_n_0_1_1_wf) (dinvK ei)
      (col 800000 bcast_S800000_S800000x1_0 (wrapK (srcK ei))))
    (Host.gather (vecDims 50000 800000 gather_S50000_S800000x1_S800000_n_0_n_n_0_1_1_wf) (dinvK ei)
      (col 800000 bcast_S800000_S800000x1_0 (wrapK (dstK ei))))

/-- The column of self-loop coefficients: the scale squared. -/
def dsqK (ei : IVec S2x800000 32) : FVec Ideal S50000x1 .f32 :=
  shapeCast S50000x1 (mulf (dinvK ei) (dinvK ei)) shapeCasts_S50000_S50000x1

/-- The aggregate over the real edges of a 256-wide feature matrix. -/
def agg256 (ei : IVec S2x800000 32) (h : FVec Ideal S50000x256 .f32) : FVec Ideal S50000x256 .f32 :=
  weighEdges 50000 256 800000 gather_S50000x256_S800000x1_S800000x256_1_0_n_n_0_1_1256_wf
    scatter_S50000x256_S800000x1_S800000x256_1_0_0_1_wf gather_S50000_S800000x1_S800000_n_0_n_n_0_1_1_wf
    bcast_S800000_S800000x1_0 bcast_S800000x1_S800000x256_0_1
    (broadcastInDim S50000x256 ![] bcast_S_S50000x256 (constant S_ .f32 0x00000000#32)) h (dinvK ei)
    (wrapK (srcK ei)) (wrapK (dstK ei)) (dstK ei)

/-- The aggregate over the real edges of a 128-wide feature matrix. -/
def agg128 (ei : IVec S2x800000 32) (h : FVec Ideal S50000x128 .f32) : FVec Ideal S50000x128 .f32 :=
  weighEdges 50000 128 800000 gather_S50000x128_S800000x1_S800000x128_1_0_n_n_0_1_1128_wf
    scatter_S50000x128_S800000x1_S800000x128_1_0_0_1_wf gather_S50000_S800000x1_S800000_n_0_n_n_0_1_1_wf
    bcast_S800000_S800000x1_0 bcast_S800000x1_S800000x128_0_1
    (broadcastInDim S50000x128 ![] bcast_S_S50000x128 (constant S_ .f32 0x00000000#32)) h (dinvK ei)
    (wrapK (srcK ei)) (wrapK (dstK ei)) (dstK ei)

/-- The first product. -/
def h1K (x : FVec Ideal S50000x128 .f32) (w1 : FVec Ideal S128x256 .f32) : FVec Ideal S50000x256 .f32 :=
  matProd x (truncf .bf16 w1 bitsLt_bf16_f32)

/-- The first layer finished, times the second weight. -/
def h2K (x : FVec Ideal S50000x128 .f32) (ei : IVec S2x800000 32) (w1 : FVec Ideal S128x256 .f32) (b1 : FVec Ideal S256 .f32)
    (w2 : FVec Ideal S256x128 .f32) : FVec Ideal S50000x128 .f32 :=
  matProd (finish (Ideal.ofBits .f32 0x00000000#32) (agg256 ei (h1K x w1)) (h1K x w1) (dsqK ei) b1) (truncf .bf16 w2 bitsLt_bf16_f32)

/-- A head: the second layer finished, times the head's weight, plus the head's bias. -/
def headK (x : FVec Ideal S50000x128 .f32) (ei : IVec S2x800000 32) (w1 : FVec Ideal S128x256 .f32) (b1 : FVec Ideal S256 .f32)
    (w2 : FVec Ideal S256x128 .f32) (b2 : FVec Ideal S128 .f32) (wh : FVec Ideal S128x128 .f32) (bh : FVec Ideal S128 .f32) :
    FVec Ideal S50000x128 .f32 :=
  addRow (matProd (finish (Ideal.ofBits .f32 0x00000000#32) (agg128 ei (h2K x ei w1 b1 w2)) (h2K x ei w1 b1 w2) (dsqK ei) b2)
    (truncf .bf16 wh bitsLt_bf16_f32)) bh

/-! ## The boundaries, from the launch forward -/

variable (m : (ℓ : Loc nD τ sig) → Buf (Elt Ideal) ℓ) (ρ : Dev nD → PrngReg) (c : Dev nD)

theorem W0_arg0 : W0 m ρ c (Proc.devRef .tc main_arg0) = (m ((c : Thread nD τ).loc main_arg0)) := rfl
theorem W0_arg2 : W0 m ρ c (Proc.devRef .tc main_arg2) = (m ((c : Thread nD τ).loc main_arg2)) := rfl
theorem W0_arg3 : W0 m ρ c (Proc.devRef .tc main_arg3) = (m ((c : Thread nD τ).loc main_arg3)) := rfl
theorem W0_arg4 : W0 m ρ c (Proc.devRef .tc main_arg4) = (m ((c : Thread nD τ).loc main_arg4)) := rfl
theorem W0_arg5 : W0 m ρ c (Proc.devRef .tc main_arg5) = (m ((c : Thread nD τ).loc main_arg5)) := rfl
theorem W0_arg6 : W0 m ρ c (Proc.devRef .tc main_arg6) = (m ((c : Thread nD τ).loc main_arg6)) := rfl
theorem W0_arg7 : W0 m ρ c (Proc.devRef .tc main_arg7) = (m ((c : Thread nD τ).loc main_arg7)) := rfl
theorem W0_arg8 : W0 m ρ c (Proc.devRef .tc main_arg8) = (m ((c : Thread nD τ).loc main_arg8)) := rfl
theorem W0_arg9 : W0 m ρ c (Proc.devRef .tc main_arg9) = (m ((c : Thread nD τ).loc main_arg9)) := rfl

/-! ### After the first stretch of host operations -/

theorem W1_v1 : W1 m ρ c (Proc.devRef .tc main_v1) = srcK (m ((c : Thread nD τ).loc main_arg1)) := by
  show StableHlo.after hostOps0 (W0 m ρ c) (Proc.devRef .tc main_v1) = _
  after_results_simp <;> rfl
theorem W1_v3 : W1 m ρ c (Proc.devRef .tc main_v3) = dstK (m ((c : Thread nD τ).loc main_arg1)) := by
  show StableHlo.after hostOps0 (W0 m ρ c) (Proc.devRef .tc main_v3) = _
  after_results_simp <;> rfl
theorem W1_v25 : W1 m ρ c (Proc.devRef .tc main_v25) = normK (m ((c : Thread nD τ).loc main_arg1)) := by
  show StableHlo.after hostOps0 (W0 m ρ c) (Proc.devRef .tc main_v25) = _
  after_results_simp <;> rfl
theorem W1_v27 : W1 m ρ c (Proc.devRef .tc main_v27) = dsqK (m ((c : Thread nD τ).loc main_arg1)) := by
  show StableHlo.after hostOps0 (W0 m ρ c) (Proc.devRef .tc main_v27) = _
  after_results_simp <;> rfl
theorem W1_v28 : W1 m ρ c (Proc.devRef .tc main_v28) = (truncf .bf16 (m ((c : Thread nD τ).loc main_arg2) : FVec Ideal S128x256 .f32) bitsLt_bf16_f32 : FVec Ideal S128x256 .bf16) := by
  show StableHlo.after hostOps0 (W0 m ρ c) (Proc.devRef .tc main_v28) = _
  after_results_simp <;> rfl
theorem W1_arg0 : W1 m ρ c (Proc.devRef .tc main_arg0) = (m ((c : Thread nD τ).loc main_arg0)) := by
  show StableHlo.after hostOps0 (W0 m ρ c) (Proc.devRef .tc main_arg0) = _
  after_results_simp <;> exact W0_arg0 m ρ c
theorem W1_arg3 : W1 m ρ c (Proc.devRef .tc main_arg3) = (m ((c : Thread nD τ).loc main_arg3)) := by
  show StableHlo.after hostOps0 (W0 m ρ c) (Proc.devRef .tc main_arg3) = _
  after_results_simp <;> exact W0_arg3 m ρ c
theorem W1_arg4 : W1 m ρ c (Proc.devRef .tc main_arg4) = (m ((c : Thread nD τ).loc main_arg4)) := by
  show StableHlo.after hostOps0 (W0 m ρ c) (Proc.devRef .tc main_arg4) = _
  after_results_simp <;> exact W0_arg4 m ρ c
theorem W1_arg5 : W1 m ρ c (Proc.devRef .tc main_arg5) = (m ((c : Thread nD τ).loc main_arg5)) := by
  show StableHlo.after hostOps0 (W0 m ρ c) (Proc.devRef .tc main_arg5) = _
  after_results_simp <;> exact W0_arg5 m ρ c
theorem W1_arg6 : W1 m ρ c (Proc.devRef .tc main_arg6) = (m ((c : Thread nD τ).loc main_arg6)) := by
  show StableHlo.after hostOps0 (W0 m ρ c) (Proc.devRef .tc main_arg6) = _
  after_results_simp <;> exact W0_arg6 m ρ c
theorem W1_arg7 : W1 m ρ c (Proc.devRef .tc main_arg7) = (m ((c : Thread nD τ).loc main_arg7)) := by
  show StableHlo.after hostOps0 (W0 m ρ c) (Proc.devRef .tc main_arg7) = _
  after_results_simp <;> exact W0_arg7 m ρ c
theorem W1_arg8 : W1 m ρ c (Proc.devRef .tc main_arg8) = (m ((c : Thread nD τ).loc main_arg8)) := by
  show StableHlo.after hostOps0 (W0 m ρ c) (Proc.devRef .tc main_arg8) = _
  after_results_simp <;> exact W0_arg8 m ρ c
theorem W1_arg9 : W1 m ρ c (Proc.devRef .tc main_arg9) = (m ((c : Thread nD τ).loc main_arg9)) := by
  show StableHlo.after hostOps0 (W0 m ρ c) (Proc.devRef .tc main_arg9) = _
  after_results_simp <;> exact W0_arg9 m ρ c

theorem V1_arg0 : V1 m ρ c main_arg0 = (m ((c : Thread nD τ).loc main_arg0)) := W1_arg0 m ρ c
theorem V1_v28 : V1 m ρ c main_v28 = (truncf .bf16 (m ((c : Thread nD τ).loc main_arg2) : FVec Ideal S128x256 .f32) bitsLt_bf16_f32 : FVec Ideal S128x256 .bf16) := W1_v28 m ρ c

/-! ### After region 0 -/

theorem W2_v29 : W2 m ρ c (Proc.devRef .tc main_v29) = h1K (m ((c : Thread nD τ).loc main_arg0)) (m ((c : Thread nD τ).loc main_arg2)) := by
  refine (W2_arr m ρ c 2).trans ((final0 (V1 m ρ) c).trans ?_)
  rw [V1_arg0, V1_v28]
  rfl
theorem W2_v1 : W2 m ρ c (Proc.devRef .tc main_v1) = srcK (m ((c : Thread nD τ).loc main_arg1)) :=
  (W2_of_ne m ρ c main_v1 (by decide)).trans (W1_v1 m ρ c)
theorem W2_v3 : W2 m ρ c (Proc.devRef .tc main_v3) = dstK (m ((c : Thread nD τ).loc main_arg1)) :=
  (W2_of_ne m ρ c main_v3 (by decide)).trans (W1_v3 m ρ c)
theorem W2_v25 : W2 m ρ c (Proc.devRef .tc main_v25) = normK (m ((c : Thread nD τ).loc main_arg1)) :=
  (W2_of_ne m ρ c main_v25 (by decide)).trans (W1_v25 m ρ c)
theorem W2_v27 : W2 m ρ c (Proc.devRef .tc main_v27) = dsqK (m ((c : Thread nD τ).loc main_arg1)) :=
  (W2_of_ne m ρ c main_v27 (by decide)).trans (W1_v27 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)

/-! ### After the second stretch -/

theorem W3_v42 : W3 m ρ c (Proc.devRef .tc main_v42) = agg256 (m ((c : Thread nD τ).loc main_arg1)) (h1K (m ((c : Thread nD τ).loc main_arg0)) (m ((c : Thread nD τ).loc main_arg2))) := by
  show StableHlo.after hostOps1 (W2 m ρ c) (Proc.devRef .tc main_v42) = _
  after_results_simp
  rw [W2_v1, W2_v3, W2_v25, W2_v29]
  rfl
theorem W3_v43 : W3 m ρ c (Proc.devRef .tc main_v43) = (truncf .bf16 (m ((c : Thread nD τ).loc main_arg4) : FVec Ideal S256x128 .f32) bitsLt_bf16_f32 : FVec Ideal S256x128 .bf16) := by
  show StableHlo.after hostOps1 (W2 m ρ c) (Proc.devRef .tc main_v43) = _
  after_results_simp
  rw [W2_arg4]
theorem W3_v29 : W3 m ρ c (Proc.devRef .tc main_v29) = h1K (m ((c : Thread nD τ).loc main_arg0)) (m ((c : Thread nD τ).loc main_arg2)) := by
  show StableHlo.after hostOps1 (W2 m ρ c) (Proc.devRef .tc main_v29) = _
  after_results_simp <;> exact W2_v29 m ρ c
theorem W3_v1 : W3 m ρ c (Proc.devRef .tc main_v1) = srcK (m ((c : Thread nD τ).loc main_arg1)) := by
  show StableHlo.after hostOps1 (W2 m ρ c) (Proc.devRef .tc main_v1) = _
  after_results_simp <;> exact W2_v1 m ρ c
theorem W3_v3 : W3 m ρ c (Proc.devRef .tc main_v3) = dstK (m ((c : Thread nD τ).loc main_arg1)) := by
  show StableHlo.after hostOps1 (W2 m ρ c) (Proc.devRef .tc main_v3) = _
  after_results_simp <;> exact W2_v3 m ρ c
theorem W3_v25 : W3 m ρ c (Proc.devRef .tc main_v25) = normK (m ((c : Thread nD τ).loc main_arg1)) := by
  show StableHlo.after hostOps1 (W2 m ρ c) (Proc.devRef .tc main_v25) = _
  after_results_simp <;> exact W2_v25 m ρ c
theorem W3_v27 : W3 m ρ c (Proc.devRef .tc main_v27) = dsqK (m ((c : Thread nD τ).loc main_arg1)) := by
  show StableHlo.after hostOps1 (W2 m ρ c) (Proc.devRef .tc main_v27) = _
  after_results_simp <;> exact W2_v27 m ρ c
theorem W3_arg3 : W3 m ρ c (Proc.devRef .tc main_arg3) = (m ((c : Thread nD τ).loc main_arg3)) := by
  show StableHlo.after hostOps1 (W2 m ρ c) (Proc.devRef .tc main_arg3) = _
  after_results_simp <;> exact W2_arg3 m ρ c
theorem W3_arg5 : W3 m ρ c (Proc.devRef .tc main_arg5) = (m ((c : Thread nD τ).loc main_arg5)) := by
  show StableHlo.after hostOps1 (W2 m ρ c) (Proc.devRef .tc main_arg5) = _
  after_results_simp <;> exact W2_arg5 m ρ c
theorem W3_arg6 : W3 m ρ c (Proc.devRef .tc main_arg6) = (m ((c : Thread nD τ).loc main_arg6)) := by
  show StableHlo.after hostOps1 (W2 m ρ c) (Proc.devRef .tc main_arg6) = _
  after_results_simp <;> exact W2_arg6 m ρ c
theorem W3_arg7 : W3 m ρ c (Proc.devRef .tc main_arg7) = (m ((c : Thread nD τ).loc main_arg7)) := by
  show StableHlo.after hostOps1 (W2 m ρ c) (Proc.devRef .tc main_arg7) = _
  after_results_simp <;> exact W2_arg7 m ρ c
theorem W3_arg8 : W3 m ρ c (Proc.devRef .tc main_arg8) = (m ((c : Thread nD τ).loc main_arg8)) := by
  show StableHlo.after hostOps1 (W2 m ρ c) (Proc.devRef .tc main_arg8) = _
  after_results_simp <;> exact W2_arg8 m ρ c
theorem W3_arg9 : W3 m ρ c (Proc.devRef .tc main_arg9) = (m ((c : Thread nD τ).loc main_arg9)) := by
  show StableHlo.after hostOps1 (W2 m ρ c) (Proc.devRef .tc main_arg9) = _
  after_results_simp <;> exact W2_arg9 m ρ c

theorem V3_v42 : V3 m ρ c main_v42 = agg256 (m ((c : Thread nD τ).loc main_arg1)) (h1K (m ((c : Thread nD τ).loc main_arg0)) (m ((c : Thread nD τ).loc main_arg2))) := W3_v42 m ρ c
theorem V3_v29 : V3 m ρ c main_v29 = h1K (m ((c : Thread nD τ).loc main_arg0)) (m ((c : Thread nD τ).loc main_arg2)) := W3_v29 m ρ c
theorem V3_v27 : V3 m ρ c main_v27 = dsqK (m ((c : Thread nD τ).loc main_arg1)) := W3_v27 m ρ c
theorem V3_arg3 : V3 m ρ c main_arg3 = (m ((c : Thread nD τ).loc main_arg3)) := W3_arg3 m ρ c
theorem V3_v43 : V3 m ρ c main_v43 = (truncf .bf16 (m ((c : Thread nD τ).loc main_arg4) : FVec Ideal S256x128 .f32) bitsLt_bf16_f32 : FVec Ideal S256x128 .bf16) := W3_v43 m ρ c

/-! ### After region 1 -/

theorem W4_v44 : W4 m ρ c (Proc.devRef .tc main_v44) = h2K (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((final1 (V3 m ρ) c).trans ?_)
  unfold G1
  rw [V3_v42, V3_v29, V3_v27, V3_arg3, V3_v43]
  rfl
theorem W4_v1 : W4 m ρ c (Proc.devRef .tc main_v1) = srcK (m ((c : Thread nD τ).loc main_arg1)) :=
  (W4_of_ne m ρ c main_v1 (by decide)).trans (W3_v1 m ρ c)
theorem W4_v3 : W4 m ρ c (Proc.devRef .tc main_v3) = dstK (m ((c : Thread nD τ).loc main_arg1)) :=
  (W4_of_ne m ρ c main_v3 (by decide)).trans (W3_v3 m ρ c)
theorem W4_v25 : W4 m ρ c (Proc.devRef .tc main_v25) = normK (m ((c : Thread nD τ).loc main_arg1)) :=
  (W4_of_ne m ρ c main_v25 (by decide)).trans (W3_v25 m ρ c)
theorem W4_v27 : W4 m ρ c (Proc.devRef .tc main_v27) = dsqK (m ((c : Thread nD τ).loc main_arg1)) :=
  ((W4_arr m ρ c 2).trans (((dat1 (V3 m ρ) c).arrAt_in 2 rfl _).trans (A_eq1 (V3 m ρ) c 2))).trans (W3_v27 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)

/-! ### After the third stretch -/

theorem W5_v57 : W5 m ρ c (Proc.devRef .tc main_v57) = agg128 (m ((c : Thread nD τ).loc main_arg1)) (h2K (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) (Proc.devRef .tc main_v57) = _
  after_results_simp
  rw [W4_v1, W4_v3, W4_v25, W4_v44]
  rfl
theorem W5_v58 : W5 m ρ c (Proc.devRef .tc main_v58) = (truncf .bf16 (m ((c : Thread nD τ).loc main_arg6) : FVec Ideal S128x128 .f32) bitsLt_bf16_f32 : FVec Ideal S128x128 .bf16) := by
  show StableHlo.after hostOps2 (W4 m ρ c) (Proc.devRef .tc main_v58) = _
  after_results_simp
  rw [W4_arg6]
theorem W5_v59 : W5 m ρ c (Proc.devRef .tc main_v59) = (truncf .bf16 (m ((c : Thread nD τ).loc main_arg8) : FVec Ideal S128x128 .f32) bitsLt_bf16_f32 : FVec Ideal S128x128 .bf16) := by
  show StableHlo.after hostOps2 (W4 m ρ c) (Proc.devRef .tc main_v59) = _
  after_results_simp
  rw [W4_arg8]
theorem W5_v44 : W5 m ρ c (Proc.devRef .tc main_v44) = h2K (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v44) = _
  after_results_simp <;> exact W4_v44 m ρ c
theorem W5_v27 : W5 m ρ c (Proc.devRef .tc main_v27) = dsqK (m ((c : Thread nD τ).loc main_arg1)) := by
  show StableHlo.after hostOps2 (W4 m ρ c) (Proc.devRef .tc main_v27) = _
  after_results_simp <;> exact W4_v27 m ρ c
theorem W5_arg5 : W5 m ρ c (Proc.devRef .tc main_arg5) = (m ((c : Thread nD τ).loc main_arg5)) := by
  show StableHlo.after hostOps2 (W4 m ρ c) (Proc.devRef .tc main_arg5) = _
  after_results_simp <;> exact W4_arg5 m ρ c
theorem W5_arg7 : W5 m ρ c (Proc.devRef .tc main_arg7) = (m ((c : Thread nD τ).loc main_arg7)) := by
  show StableHlo.after hostOps2 (W4 m ρ c) (Proc.devRef .tc main_arg7) = _
  after_results_simp <;> exact W4_arg7 m ρ c
theorem W5_arg9 : W5 m ρ c (Proc.devRef .tc main_arg9) = (m ((c : Thread nD τ).loc main_arg9)) := by
  show StableHlo.after hostOps2 (W4 m ρ c) (Proc.devRef .tc main_arg9) = _
  after_results_simp <;> exact W4_arg9 m ρ c

theorem V5_v57 : V5 m ρ c main_v57 = agg128 (m ((c : Thread nD τ).loc main_arg1)) (h2K (m ((c : Thread nD τ).loc main_arg0)) (m ((c : Thread nD τ).loc main_arg1)) (m ((c : Thread nD τ).loc main_arg2)) (m ((c : Thread nD τ).loc main_arg3)) (m ((c : Thread nD τ).loc main_arg4))) := W5_v57 m ρ c
theorem V5_v44 : V5 m ρ c main_v44 = h2K (m ((c : Thread nD τ).loc main_arg0)) (m ((c : Thread nD τ).loc main_arg1)) (m ((c : Thread nD τ).loc main_arg2)) (m ((c : Thread nD τ).loc main_arg3)) (m ((c : Thread nD τ).loc main_arg4)) := W5_v44 m ρ c
theorem V5_v27 : V5 m ρ c main_v27 = dsqK (m ((c : Thread nD τ).loc main_arg1)) := W5_v27 m ρ c
theorem V5_arg5 : V5 m ρ c main_arg5 = (m ((c : Thread nD τ).loc main_arg5)) := W5_arg5 m ρ c
theorem V5_v58 : V5 m ρ c main_v58 = (truncf .bf16 (m ((c : Thread nD τ).loc main_arg6) : FVec Ideal S128x128 .f32) bitsLt_bf16_f32 : FVec Ideal S128x128 .bf16) := W5_v58 m ρ c
theorem V5_arg7 : V5 m ρ c main_arg7 = (m ((c : Thread nD τ).loc main_arg7)) := W5_arg7 m ρ c
theorem V5_v59 : V5 m ρ c main_v59 = (truncf .bf16 (m ((c : Thread nD τ).loc main_arg8) : FVec Ideal S128x128 .f32) bitsLt_bf16_f32 : FVec Ideal S128x128 .bf16) := W5_v59 m ρ c
theorem V5_arg9 : V5 m ρ c main_arg9 = (m ((c : Thread nD τ).loc main_arg9)) := W5_arg9 m ρ c

/-! ### After region 2: the results -/

/-- The first result array, as one function of the arguments. -/
theorem W6_v60_0 : W6 m ρ c (Proc.devRef .tc main_v60_0)
    = headK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 8).trans ((final2_8 (V5 m ρ) c).trans ?_)
  unfold G2mu
  rw [V5_v57, V5_v44, V5_v27, V5_arg5, V5_v58, V5_arg7]
  rfl

/-- The second result array, as one function of the arguments. -/
theorem W6_v60_1 : W6 m ρ c (Proc.devRef .tc main_v60_1)
    = headK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  refine (W6_arr m ρ c 9).trans ((final2_9 (V5 m ρ) c).trans ?_)
  unfold G2lv
  rw [V5_v57, V5_v44, V5_v27, V5_arg5, V5_v59, V5_arg9]
  rfl

end Cert.KernelIdeal.Stages

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.RefValue.lean ====
/-
  The reference's composed results identified with stage functions: the edge list with one self-loop per node appended,
  the guarded degree scale, the aggregate over that longer list as one function (`weighEdges`), the rectified layers and
  the two heads.
-/
import proofs.«116010_j87333864997319_2_alg».proof.Proof.RefRun
import proofs.«116010_j87333864997319_2_alg».proof.Proof.LibGcnLayer

set_option maxRecDepth 16384

noncomputable section

open Idealize.ShloMosaic Idealize.ShloMosaic.TcCoe Idealize.ShloMosaic.ValueIdx Idealize.SL.Sem
open Idealize.ShloMosaic.RowIndex
open Cert.Gcn

namespace Cert.ReferenceIdeal.Stages

open Cert.ReferenceIdeal Cert.ReferenceIdeal.Gen

/-- The edges' source row numbers followed by the row numbers in order (the self-loops' sources). -/
def srcR (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

/-- The edges' target row numbers followed by the row numbers in order (the self-loops' targets). -/
def dstR (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- Row numbers with the negative ones wrapped. -/
def wrapR (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The number of entries of the longer list sent to each node. -/
def degR (ei : IVec S2x800000 32) : FVec Ideal S50000 .f32 :=
  Host.scatterAdd (vecScatter 50000 850000 scatter_S50000_S850000x1_S850000_n_0_0_1_wf)
    (broadcastInDim S50000 ![] bcast_S_S50000 (constant S_ .f32 0x00000000#32))
    (col 850000 bcast_S850000_S850000x1_0 (dstR ei))
    (broadcastInDim S850000 ![] bcast_S_S850000 (constant S_ .f32 0x3F800000#32))

/-- The guarded degree scale: rsqrt of the count where it is positive, zero elsewhere. -/
def dinvR (ei : IVec S2x800000 32) : FVec Ideal S50000 .f32 :=
  select (cmpf .ogt (degR ei) (broadcastInDim S50000 ![] bcast_S_S50000 (constant S_ .f32 0x00000000#32)))
    (Host.rsqrt (degR ei)) (broadcastInDim S50000 ![] bcast_S_S50000 (id (constant S_ .f32 0x00000000#32)))

/-- The aggregate over the longer list of a 256-wide feature matrix. -/
def aggR256 (ei : IVec S2x800000 32) (h : FVec Ideal S50000x256 .f32) : FVec Ideal S50000x256 .f32 :=
  weighEdges 50000 256 850000 gather_S50000x256_S850000x1_S850000x256_1_0_n_n_0_1_1256_wf
    scatter_S50000x256_S850000x1_S850000x256_1_0_0_1_wf gather_S50000_S850000x1_S850000_n_0_n_n_0_1_1_wf
    bcast_S850000_S850000x1_0 bcast_S850000x1_S850000x256_0_1
    (broadcastInDim S50000x256 ![] bcast_S_S50000x256 (constant S_ .f32 0x00000000#32)) h (dinvR ei)
    (wrapR (srcR ei)) (wrapR (dstR ei)) (dstR ei)

/-- The aggregate over the longer list of a 128-wide feature matrix. -/
def aggR128 (ei : IVec S2x800000 32) (h : FVec Ideal S50000x128 .f32) : FVec Ideal S50000x128 .f32 :=
  weighEdges 50000 128 850000 gather_S50000x128_S850000x1_S850000x128_1_0_n_n_0_1_1128_wf
    scatter_S50000x128_S850000x1_S850000x128_1_0_0_1_wf gather_S50000_S850000x1_S850000_n_0_n_n_0_1_1_wf
    bcast_S850000_S850000x1_0 bcast_S850000x1_S850000x128_0_1
    (broadcastInDim S50000x128 ![] bcast_S_S50000x128 (constant S_ .f32 0x00000000#32)) h (dinvR ei)
    (wrapR (srcR ei)) (wrapR (dstR ei)) (dstR ei)

/-- The first product. -/
def h1R (x : FVec Ideal S50000x128 .f32) (w1 : FVec Ideal S128x256 .f32) : FVec Ideal S50000x256 .f32 :=
  Host.dotGeneral dot_S50000x128_S128x256_S50000x256_1_0_0_1_n_n none x w1

/-- The first layer: the aggregate plus the bias, rectified. -/
def act1R (x : FVec Ideal S50000x128 .f32) (ei : IVec S2x800000 32) (w1 : FVec Ideal S128x256 .f32) (b1 : FVec Ideal S256 .f32) :
    FVec Ideal S50000x256 .f32 :=
  maximumf (addf (aggR256 ei (h1R x w1))
      (broadcastInDim S50000x256 ![0, 1] bcast_S1x256_S50000x256_0_1 (broadcastInDim S1x256 ![1] bcast_S256_S1x256_1 b1)))
    (broadcastInDim S50000x256 ![] bcast_S_S50000x256 (constant S_ .f32 0x00000000#32))

/-- The second product. -/
def h2R (x : FVec Ideal S50000x128 .f32) (ei : IVec S2x800000 32) (w1 : FVec Ideal S128x256 .f32) (b1 : FVec Ideal S256 .f32)
    (w2 : FVec Ideal S256x128 .f32) : FVec Ideal S50000x128 .f32 :=
  Host.dotGeneral dot_S50000x256_S256x128_S50000x128_1_0_0_1_n_n none (act1R x ei w1 b1) w2

/-- The second layer: the aggregate plus the bias, rectified. -/
def act2R (x : FVec Ideal S50000x128 .f32) (ei : IVec S2x800000 32) (w1 : FVec Ideal S128x256 .f32) (b1 : FVec Ideal S256 .f32)
    (w2 : FVec Ideal S256x128 .f32) (b2 : FVec Ideal S128 .f32) : FVec Ideal S50000x128 .f32 :=
  maximumf (addf (aggR128 ei (h2R x ei w1 b1 w2))
      (broadcastInDim S50000x128 ![0, 1] bcast_S1x128_S50000x128_0_1 (broadcastInDim S1x128 ![1] bcast_S128_S1x128_1 b2)))
    (broadcastInDim S50000x128 ![] bcast_S_S50000x128 (constant S_ .f32 0x00000000#32))

/-- A head: the second layer times the head's weight, plus the head's bias. -/
def headR (x : FVec Ideal S50000x128 .f32) (ei : IVec S2x800000 32) (w1 : FVec Ideal S128x256 .f32) (b1 : FVec Ideal S256 .f32)
    (w2 : FVec Ideal S256x128 .f32) (b2 : FVec Ideal S128 .f32) (wh : FVec Ideal S128x128 .f32) (bh : FVec Ideal S128 .f32) :
    FVec Ideal S50000x128 .f32 :=
  addf (Host.dotGeneral dot_S50000x128_S128x128_S50000x128_1_0_0_1_n_n none (act2R x ei w1 b1 w2 b2) wh)
    (broadcastInDim S50000x128 ![0, 1] bcast_S1x128_S50000x128_0_1 (broadcastInDim S1x128 ![1] bcast_S128_S1x128_1 bh))

variable (m : (ℓ : Loc nD τ sig) → Buf (Elt Ideal) ℓ) (c : Dev nD)

/-- The first result's composed term is the first head. -/
theorem res_out0_eq : RunP.res_main_v69 m c
    = headR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold RunP.res_main_v69
  rfl

/-- The second result's composed term is the second head. -/
theorem res_out1_eq : RunP.res_main_v73 m c
    = headR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  unfold RunP.res_main_v73
  rfl

end Cert.ReferenceIdeal.Stages

end
-- ==== Proof.LibSelfLoops.lean ====
/-
  A graph convolution whose edge list ends with one self-loop per node, against the same convolution over the real edges
  with the self-loops as a separate dense term — on the extended reals, for any extents.

  Data: a feature matrix `h : [N, D]`, a per-node scale `dis : [N]`, `E` edges (source and target row numbers), and the
  longer list of `E' = E + N` edges whose last `N` entries are the loops `j → j` (the row numbers `0, …, N − 1` laid after
  the edges: `LoopsAppended`).

  * The weighted aggregate over the longer list, at `(n, d)`, is the aggregate over the real edges plus the loop's own term
    `h (n, d) · (dis n · dis n)` (`weighEdges_loops`): the sum over the longer list splits at the joint, the first part is the
    real edges' sum term by term, and of the loops exactly loop `n` lands on row `n`, reading row `n` at both ends.
  * The count of edges into `n` over the longer list is the count over the real edges plus one (`count_loops`), and a count
    plus one is positive (`count_succ_pos`), so a guard `if 0 < deg then rsqrt deg else 0` on it is `rsqrt deg`
    (`select_ogt_zero_of_pos`).

  Only commutativity and associativity of the extended reals' sum are used: the terms may be infinite.  A loop's row
  number `j < N ≤ 2^31` reads signed as `j` (`toInt_ofNat_of_lt`), so it survives the negative-wrap and the clamp.
  It builds on the aggregate read as a segment sum, the vector scatter read as a segment sum and the split of a sum
  at a joint, which it imports.
-/
import proofs.«116010_j87333864997319_2_alg».proof.Proof.LibGcnLayer

noncomputable section

open scoped BigOperators

namespace Cert.Gcn

open Idealize.ShloMosaic Idealize.ShloMosaic.ValueIdx Idealize.ShloMosaic.RowIndex

/-- A row number below 2^31, written as a 32-bit word, reads signed as itself. -/
theorem toInt_ofNat_of_lt (j : Nat) (hj : j < 2147483648) : (BitVec.ofNat 32 j).toInt = (j : Int) := by
  rw [BitVec.toInt_eq_toNat_cond, BitVec.toNat_ofNat]
  have h : j % 2 ^ 32 = j := Nat.mod_eq_of_lt (by omega)
  rw [h]
  split <;> omega

/-- A guard `if 0 < x then a else b` on a positive `x` is `a`. -/
theorem select_ogt_zero_of_pos {α : Type} {x : EReal} (hx : 0 < x) (a b : α) :
    Scalar.select (Ideal.cmp .ogt x 0) a b = a := by
  simp [Scalar.select, Ideal.cmp, hx]

section
variable {N E E' : Nat}

/-- `v'` is `v` followed by the row numbers `0, …, N − 1`. -/
structure LoopsAppended (v : IVec ⟨1, ![E]⟩ 32) (v' : IVec ⟨1, ![E']⟩ 32) : Prop where
  left : ∀ (e : Fin E) (he : e.val < E'), v' (ix1 (⟨e.val, he⟩ : Fin E')) = v (ix1 e)
  right : ∀ (j : Fin N) (hj : E + j.val < E'), v' (ix1 (⟨E + j.val, hj⟩ : Fin E')) = BitVec.ofNat 32 j.val

/-- Two vectors laid end to end, the second the row numbers in order, is the first with the loops appended. -/
theorem loopsAppended_concatenate
    (h : Shape.Concatenates [(⟨1, ![E]⟩ : Shape), ⟨1, ![N]⟩] ⟨1, ![E']⟩ 0) (v : IVec ⟨1, ![E]⟩ 32) :
    LoopsAppended (N := N) v
      (concatenate ⟨1, ![E']⟩ 0 [⟨⟨1, ![E]⟩, v⟩, ⟨⟨1, ![N]⟩, iotaInDim ⟨1, ![N]⟩ 32 0⟩] h) :=
  ⟨fun e he => concatenate_vec_apply_left v _ h ⟨e.val, he⟩ e.isLt,
   fun j hj => (concatenate_vec_apply_right v _ h ⟨E + j.val, hj⟩ j rfl).trans rfl⟩

variable (hN : 0 < N) (hN31 : N ≤ 2147483648)

/-- On a real edge the wrapped longer list reads the row the wrapped shorter list reads. -/
theorem rowOf_loops_left (off : BitVec 32) (c cw : IVec ⟨1, ![E]⟩ 32) (c' cw' : IVec ⟨1, ![E']⟩ 32)
    (hw : IsWrapOf E off cw c) (hw' : IsWrapOf E' off cw' c') (hl : LoopsAppended (N := N) c c')
    (e : Fin E) (he : e.val < E') :
    rowOf N E' hN cw' ⟨e.val, he⟩ = rowOf N E hN cw e := by
  apply Fin.ext
  show min (cw' (ix1 (⟨e.val, he⟩ : Fin E'))).toInt.toNat (N - 1) = min (cw (ix1 e)).toInt.toNat (N - 1)
  rw [hw' ⟨e.val, he⟩, hw e, hl.left e he]

include hN31 in
/-- On loop `j` the wrapped longer list reads row `j`. -/
theorem rowOf_loops_right (off : BitVec 32) (c' cw' : IVec ⟨1, ![E']⟩ 32) (c : IVec ⟨1, ![E]⟩ 32)
    (hw' : IsWrapOf E' off cw' c') (hl : LoopsAppended (N := N) c c') (j : Fin N) (hj : E + j.val < E') :
    rowOf N E' hN cw' ⟨E + j.val, hj⟩ = j := by
  apply Fin.ext
  show min (cw' (ix1 (⟨E + j.val, hj⟩ : Fin E'))).toInt.toNat (N - 1) = j.val
  rw [hw' ⟨E + j.val, hj⟩, hl.right j hj]
  exact wrap_clamp_of_toInt_eq _ off j.val j.isLt (toInt_ofNat_of_lt j.val (by have := j.isLt; omega))

end

/-! ## The filtered sum over the longer list -/

section Split
variable {N E E' : Nat} {M : Type*} [AddCommMonoid M]

/-- A sum over the positions of the longer list sent to `n` is the sum over the real edges sent to `n` plus loop `n`'s
    term, when a real edge is sent where it was and loop `j` is sent to `j`. -/
theorem sum_sentTo_loops (hE : E' = E + N) (hN31 : N ≤ 2147483648) (w : Fin E → BitVec 32) (w' : Fin E' → BitVec 32)
    (hL : ∀ (e : Fin E) (he : e.val < E'), w' ⟨e.val, he⟩ = w e)
    (hR : ∀ (j : Fin N) (hj : E + j.val < E'), w' ⟨E + j.val, hj⟩ = BitVec.ofNat 32 j.val)
    (n : Fin N) (f : Fin E' → M) :
    ∑ i ∈ Finset.univ.filter (fun i : Fin E' => (w' i).toInt = (n.val : Int)), f i
      = ∑ e ∈ Finset.univ.filter (fun e : Fin E => (w e).toInt = (n.val : Int)), f ⟨e.val, by omega⟩
        + f ⟨E + n.val, by omega⟩ := by
  rw [sum_filter_fin_split hE]
  refine congrArg₂ (· + ·) ?_ ?_
  · refine Finset.sum_congr (Finset.filter_congr fun e _ => ?_) fun _ _ => rfl
    show (w' ⟨e.val, _⟩).toInt = (n.val : Int) ↔ (w e).toInt = (n.val : Int)
    rw [hL e]
  · have hto : ∀ j : Fin N, (BitVec.ofNat 32 j.val).toInt = (j.val : Int) := fun j =>
      toInt_ofNat_of_lt j.val (by have := j.isLt; omega)
    refine Finset.sum_eq_single_of_mem n (Finset.mem_filter.mpr ⟨Finset.mem_univ _, ?_⟩) fun j hj hne => ?_
    · show (w' ⟨E + n.val, _⟩).toInt = (n.val : Int)
      rw [hR n, hto]
    · have h : (w' ⟨E + j.val, by omega⟩).toInt = (n.val : Int) := (Finset.mem_filter.mp hj).2
      rw [hR j, hto] at h
      exact absurd (Fin.ext (by exact_mod_cast h)) hne

end Split

/-! ## The weighted aggregate -/

section Law
variable {N D E E' : Nat} (hE : E' = E + N) (hN : 0 < N) (hN31 : N ≤ 2147483648)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))
  (gwf' : GatherDims.WF ⟨2, ![N, D]⟩ ⟨2, ![E', 1]⟩ ⟨2, ![E', D]⟩ [1] [0] [] [0] [] 1 ![1, D])
  (swf' : ScatterDims.WF ⟨2, ![N, D]⟩ ⟨2, ![E', 1]⟩ ⟨2, ![E', D]⟩ [1] [0] [0] 1)
  (vwf' : GatherDims.WF ⟨1, ![N]⟩ ⟨2, ![E', 1]⟩ ⟨1, ![E']⟩ [] [0] [] [0] [] 1 ![1])
  (hbE' : (⟨1, ![E']⟩ : Shape).BroadcastsInDim ⟨2, ![E', 1]⟩ (![0] : Fin 1 → Fin 2))
  (hbED' : (⟨2, ![E', 1]⟩ : Shape).BroadcastsInDim ⟨2, ![E', D]⟩ (![0, 1] : Fin 2 → Fin 2))

include hE hN hN31 in
/-- The aggregate over the edges followed by the loops is the aggregate over the edges plus the loop's own term. -/
theorem weighEdges_loops (off : BitVec 32) (z z' h : FVec Ideal ⟨2, ![N, D]⟩ .f32) (dis : FVec Ideal ⟨1, ![N]⟩ .f32)
    (r rw c cw : IVec ⟨1, ![E]⟩ 32) (r' rw' c' cw' : IVec ⟨1, ![E']⟩ 32)
    (hz : ∀ i, z i = 0) (hz' : ∀ i, z' i = 0)
    (hrw : IsWrapOf E off rw r) (hrw' : IsWrapOf E' off rw' r') (hr : LoopsAppended (N := N) r r')
    (hcw : IsWrapOf E off cw c) (hcw' : IsWrapOf E' off cw' c') (hc : LoopsAppended (N := N) c c')
    (n : Fin N) (d : Fin D) :
    weighEdges N D E' gwf' swf' vwf' hbE' hbED' z' h dis rw' cw' c' (ix2 n d)
      = weighEdges N D E gwf swf vwf hbE hbED z h dis rw cw c (ix2 n d)
        + h (ix2 n d) * (dis (ix1 n) * dis (ix1 n)) := by
  rw [weighEdges_apply N D E' hN, weighEdges_apply N D E hN, hz, hz', add_assoc]
  refine congrArg (0 + ·) ?_
  unfold rowsTo
  have key := sum_sentTo_loops (N := N) hE hN31 (fun e : Fin E => col E hbE c (atRow e))
    (fun i : Fin E' => col E' hbE' c' (atRow i))
    (fun e he => by rw [col_atRow, col_atRow]; exact hc.left e he)
    (fun j hj => by rw [col_atRow]; exact hc.right j hj) n
    (fun i : Fin E' => h (ix2 (rowOf N E' hN rw' i) d) * (dis (ix1 (rowOf N E' hN rw' i)) * dis (ix1 (rowOf N E' hN cw' i))))
  refine key.trans (congrArg₂ (· + ·) (Finset.sum_congr rfl fun e _ => ?_) ?_)
  · beta_reduce
    rw [rowOf_loops_left hN off r rw r' rw' hrw hrw' hr e, rowOf_loops_left hN off c cw c' cw' hcw hcw' hc e]
  · beta_reduce
    rw [rowOf_loops_right hN hN31 off r' rw' r hrw' hr n, rowOf_loops_right hN hN31 off c' cw' c hcw' hc n]

end Law

/-! ## The count of edges into a node -/

section Count
variable {N E E' : Nat} (hE : E' = E + N) (hN31 : N ≤ 2147483648)
  (vswf : ScatterDims.WF ⟨1, ![N]⟩ ⟨2, ![E, 1]⟩ ⟨1, ![E]⟩ [] [0] [0] 1)
  (vswf' : ScatterDims.WF ⟨1, ![N]⟩ ⟨2, ![E', 1]⟩ ⟨1, ![E']⟩ [] [0] [0] 1)
  (hbE : (⟨1, ![E]⟩ : Shape).BroadcastsInDim ⟨2, ![E, 1]⟩ (![0] : Fin 1 → Fin 2))
  (hbE' : (⟨1, ![E']⟩ : Shape).BroadcastsInDim ⟨2, ![E', 1]⟩ (![0] : Fin 1 → Fin 2))

include hE hN31 in
/-- Counting the edges into `n` over the edges followed by the loops gives one more than over the edges. -/
theorem count_loops (z z' : FVec Ideal ⟨1, ![N]⟩ .f32) (ones : FVec Ideal ⟨1, ![E]⟩ .f32)
    (ones' : FVec Ideal ⟨1, ![E']⟩ .f32) (c : IVec ⟨1, ![E]⟩ 32) (c' : IVec ⟨1, ![E']⟩ 32)
    (hz : ∀ i, z i = 0) (hz' : ∀ i, z' i = 0) (hones : ∀ i, ones i = 1) (hones' : ∀ i, ones' i = 1)
    (hc : LoopsAppended (N := N) c c') (n : Fin N) :
    Host.scatterAdd (vecScatter N E' vswf') z' (col E' hbE' c') ones' (ix1 n)
      = Host.scatterAdd (vecScatter N E vswf) z (col E hbE c) ones (ix1 n) + 1 := by
  rw [scatterAdd_vec_apply, scatterAdd_vec_apply, hz, hz', add_assoc]
  refine congrArg (0 + ·) ?_
  unfold rowsTo
  have key := sum_sentTo_loops (N := N) hE hN31 (fun e : Fin E => col E hbE c (atRow e))
    (fun i : Fin E' => col E' hbE' c' (atRow i))
    (fun e he => by rw [col_atRow, col_atRow]; exact hc.left e he)
    (fun j hj => by rw [col_atRow]; exact hc.right j hj) n (fun i : Fin E' => ones' (ix1 i))
  refine key.trans (congrArg₂ (· + ·) (Finset.sum_congr rfl fun e _ => ?_) ?_)
  · beta_reduce
    rw [hones', hones]
  · exact hones' _

/-- A count of edges, summed onto zero, plus one is positive. -/
theorem count_succ_pos (z : FVec Ideal ⟨1, ![N]⟩ .f32) (ones : FVec Ideal ⟨1, ![E]⟩ .f32) (idx : IVec ⟨2, ![E, 1]⟩ 32)
    (hz : ∀ i, z i = 0) (hones : ∀ i, ones i = 1) (n : Fin N) :
    0 < Host.scatterAdd (vecScatter N E vswf) z idx ones (ix1 n) + 1 := by
  rw [scatterAdd_vec_apply, hz]
  have h01 : (0 : EReal) < 1 := by exact_mod_cast (zero_lt_one : (0 : ℝ) < 1)
  refine lt_of_lt_of_le h01 (le_add_of_nonneg_left (add_nonneg le_rfl (Finset.sum_nonneg fun e _ => ?_)))
  rw [hones]
  exact le_of_lt h01

end Count

end Cert.Gcn

end
-- ==== Proof.LibLoopsLayer.lean ====
/-
  One graph-convolution layer in its two arrangements, as whole arrays on the extended reals, for any extents.

  One side runs over the edges followed by one self-loop per node (`E' = E + N` entries), guards its degree scale with
  `if 0 < deg then rsqrt deg else 0`, and rectifies the aggregate plus the bias. The other runs over the real edges only, adds one
  to the count for the degree, and finishes the layer with the self-loop as a dense term:
  `max (aggregate + dis² · h + bias, 0)` (`finish`).
  * `dinv_loops`: the two degree scales are one vector (the count over the longer list is the count over the edges plus
    one, and that is positive, so the guard is never taken);
  * `layer_loops`: the two finished layers are one array, given a common feature matrix `h` and scale `dis` and the
    coefficient column `dsq (n, 0) = dis n · dis n`;
  * `head_eq`: a dense head `act · W + bias` written with the host's product and a spread bias is the product as one
    function plus the bias row.
  Only the commutative-monoid laws of the extended reals' sum and the commutativity of the product are used.
  It imports the appended-self-loops laws and the finishing step.
-/
import proofs.«116010_j87333864997319_2_alg».proof.Proof.LibSelfLoops
import proofs.«116010_j87333864997319_2_alg».proof.Proof.LibFinishRows

noncomputable section

open scoped BigOperators

namespace Cert.Gcn

open Idealize.ShloMosaic Idealize.ShloMosaic.ValueIdx Idealize.ShloMosaic.RowIndex Cert.Products

/-- A scalar spread over a whole array reads, at every index, the scalar. -/
theorem broadcastInDim_scalar_apply {α : Type} {t : Shape} (h : (⟨0, ![]⟩ : Shape).BroadcastsInDim t (![] : Fin 0 → Fin t.rank))
    (x : (⟨0, ![]⟩ : Shape).Idx → α) (i : t.Idx) :
    broadcastInDim t (![] : Fin 0 → Fin t.rank) h x i = x ix0 :=
  broadcastInDim_apply _ h x i ix0 (fun a => a.elim0)

section Scale
variable {N E E' : Nat} (hE : E' = E + N) (hN31 : N ≤ 2147483648)
  (vswf : ScatterDims.WF ⟨1, ![N]⟩ ⟨2, ![E, 1]⟩ ⟨1, ![E]⟩ [] [0] [0] 1)
  (vswf' : ScatterDims.WF ⟨1, ![N]⟩ ⟨2, ![E', 1]⟩ ⟨1, ![E']⟩ [] [0] [0] 1)
  (hbE : (⟨1, ![E]⟩ : Shape).BroadcastsInDim ⟨2, ![E, 1]⟩ (![0] : Fin 1 → Fin 2))
  (hbE' : (⟨1, ![E']⟩ : Shape).BroadcastsInDim ⟨2, ![E', 1]⟩ (![0] : Fin 1 → Fin 2))

include hE hN31 in
/-- The guarded degree scale over the edges followed by the loops is the unguarded one over the edges with one added to
    the count. -/
theorem dinv_loops (z z' zeroN zeroN' oneN : FVec Ideal ⟨1, ![N]⟩ .f32) (ones : FVec Ideal ⟨1, ![E]⟩ .f32)
    (ones' : FVec Ideal ⟨1, ![E']⟩ .f32) (c : IVec ⟨1, ![E]⟩ 32) (c' : IVec ⟨1, ![E']⟩ 32)
    (hz : ∀ i, z i = 0) (hz' : ∀ i, z' i = 0) (hones : ∀ i, ones i = 1) (hones' : ∀ i, ones' i = 1)
    (hc : LoopsAppended (N := N) c c') (hzero : ∀ i, zeroN i = 0) (hone : ∀ i, oneN i = 1) :
    select (cmpf .ogt (Host.scatterAdd (vecScatter N E' vswf') z' (col E' hbE' c') ones') zeroN)
        (Host.rsqrt (Host.scatterAdd (vecScatter N E' vswf') z' (col E' hbE' c') ones')) zeroN'
      = Host.rsqrt (addf (Host.scatterAdd (vecScatter N E vswf) z (col E hbE c) ones) oneN) := by
  funext i
  obtain ⟨n, rfl⟩ : ∃ n : Fin N, i = ix1 n := ⟨i 0, eq_ix1 i⟩
  show Scalar.select (Ideal.cmp .ogt (Host.scatterAdd (vecScatter N E' vswf') z' (col E' hbE' c') ones' (ix1 n)) (zeroN (ix1 n)))
      (Ideal.rsqrt (Host.scatterAdd (vecScatter N E' vswf') z' (col E' hbE' c') ones' (ix1 n))) (zeroN' (ix1 n))
    = Ideal.rsqrt (Host.scatterAdd (vecScatter N E vswf) z (col E hbE c) ones (ix1 n) + oneN (ix1 n))
  rw [count_loops hE hN31 vswf vswf' hbE hbE' z z' ones ones' c c' hz hz' hones hones' hc n, hzero, hone]
  exact select_ogt_zero_of_pos (count_succ_pos vswf z ones _ hz hones n) _ _

end Scale

section Layer
variable {N D E E' : Nat} (hE : E' = E + N) (hN : 0 < N) (hN31 : N ≤ 2147483648)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))
  (gwf' : GatherDims.WF ⟨2, ![N, D]⟩ ⟨2, ![E', 1]⟩ ⟨2, ![E', D]⟩ [1] [0] [] [0] [] 1 ![1, D])
  (swf' : ScatterDims.WF ⟨2, ![N, D]⟩ ⟨2, ![E', 1]⟩ ⟨2, ![E', D]⟩ [1] [0] [0] 1)
  (vwf' : GatherDims.WF ⟨1, ![N]⟩ ⟨2, ![E', 1]⟩ ⟨1, ![E']⟩ [] [0] [] [0] [] 1 ![1])
  (hbE' : (⟨1, ![E']⟩ : Shape).BroadcastsInDim ⟨2, ![E', 1]⟩ (![0] : Fin 1 → Fin 2))
  (hbED' : (⟨2, ![E', 1]⟩ : Shape).BroadcastsInDim ⟨2, ![E', D]⟩ (![0, 1] : Fin 2 → Fin 2))

include hE hN hN31 in
/-- The rectified aggregate-plus-bias over the edges followed by the loops is the layer finished over the real edges with
    the self-loops as a dense term. -/
theorem layer_loops (off : BitVec 32) (z z' h : FVec Ideal ⟨2, ![N, D]⟩ .f32) (dis : FVec Ideal ⟨1, ![N]⟩ .f32)
    (r rw c cw : IVec ⟨1, ![E]⟩ 32) (r' rw' c' cw' : IVec ⟨1, ![E']⟩ 32)
    (hz : ∀ i, z i = 0) (hz' : ∀ i, z' i = 0)
    (hrw : IsWrapOf E off rw r) (hrw' : IsWrapOf E' off rw' r') (hr : LoopsAppended (N := N) r r')
    (hcw : IsWrapOf E off cw c) (hcw' : IsWrapOf E' off cw' c') (hc : LoopsAppended (N := N) c c')
    (bb zrv : FVec Ideal ⟨2, ![N, D]⟩ .f32) (zv : EReal) (b : FVec Ideal ⟨1, ![D]⟩ .f32)
    (dsq : FVec Ideal ⟨2, ![N, 1]⟩ .f32)
    (hbb : ∀ (n : Fin N) (d : Fin D), bb (ix2 n d) = b (ix1 d)) (hzr : ∀ i, zrv i = zv)
    (hdsq : ∀ n : Fin N, dsq (ix2 n (0 : Fin 1)) = dis (ix1 n) * dis (ix1 n)) :
    maximumf (addf (weighEdges N D E' gwf' swf' vwf' hbE' hbED' z' h dis rw' cw' c') bb) zrv
      = finish zv (weighEdges N D E gwf swf vwf hbE hbED z h dis rw cw c) h dsq b := by
  funext i
  obtain ⟨n, d, rfl⟩ : ∃ (n : Fin N) (d : Fin D), i = ix2 n d := ⟨i 0, i 1, eq_ix2 i⟩
  show max (weighEdges N D E' gwf' swf' vwf' hbE' hbED' z' h dis rw' cw' c' (ix2 n d) + bb (ix2 n d)) (zrv (ix2 n d)) = _
  rw [finish_ix2, weighEdges_loops hE hN hN31 gwf swf vwf hbE hbED gwf' swf' vwf' hbE' hbED' off z z' h dis
    r rw c cw r' rw' c' cw' hz hz' hrw hrw' hr hcw hcw' hc n d, hbb, hzr, hdsq, mul_comm (h (ix2 n d))]

end Layer

section Head
variable {N K Q : ℕ} (d : DotDims ⟨2, ![N, K]⟩ ⟨2, ![K, Q]⟩ ⟨2, ![N, Q]⟩)
variable (hl : d.lhsContracting = [1]) (hr : d.rhsContracting = [0]) (hln : d.lhsNonContracting = [0])
variable (hrn : d.rhsNonContracting = [1]) (hlb : d.lhsBatch = []) (hrb : d.rhsBatch = [])

include hl hr hln hrn hlb hrb in
/-- A dense head written with the host's product and a spread bias is the product plus the bias row. -/
theorem head_eq (act : FVec Ideal ⟨2, ![N, K]⟩ .f32) (w : FVec Ideal ⟨2, ![K, Q]⟩ .f32) (bb : FVec Ideal ⟨2, ![N, Q]⟩ .f32)
    (b : FVec Ideal ⟨1, ![Q]⟩ .f32) (hbb : ∀ (n : Fin N) (q : Fin Q), bb (ix2 n q) = b (ix1 q)) :
    addf (Host.dotGeneral d none act w) bb = addRow (matProd act w) b := by
  funext i
  obtain ⟨n, q, rfl⟩ : ∃ (n : Fin N) (q : Fin Q), i = ix2 n q := ⟨i 0, i 1, eq_ix2 i⟩
  show FloatOps.dotGeneral d none .single act w (ix2 n q) + bb (ix2 n q) = matProd act w (ix2 n q) + b (ix1 q)
  rw [dotGeneral_eq d hl hr hln hrn hlb hrb none .single act w, hbb]

end Head

end Cert.Gcn

end
-- ==== Proof.LibGcnSelfLoop.lean ====
/-
  A graph-convolution layer with its self-loop term, in its two arrangements, on the extended reals.

  With `h : [N, D]` the projected features, `dis : [N]` the per-node scale `deg^(-1/2)`, and for each of `E` edges a
  wrapped source row number `rw e`, a target `c e` and its wrapped form `cw e`:

  * scale first (the node-wise form):
      `out (n, d) = dis n · ( Σ_{e : c e = n} hs (rw e, d)  +  hs (n, d) ) + bias`,   `hs (n, d) = h (n, d) · dis n`;
  * weigh the edges (the edge-wise form):
      `out (n, d) = Σ_{e : c e = n} h (rw e, d) · (dis (rw e) · dis (cw e))  +  h (n, d) · (dis n · dis n) + bias`.

  They agree at every `(n, d)` as soon as `dis n` is a nonnegative real: that factor then distributes over the sum
  of the aggregate and the self-loop term (the terms themselves may be infinite), and the aggregate's two forms
  are the two arrangements of the plain aggregation.  The scale that a degree count produces,
  `rsqrt (Σ_{e : c e = n} 1 + 1)`, is such a nonnegative real: the count is a natural number, so the argument is a
  real number ≥ 1.  Stated for any extents `N`, `D`, `E` over the hosts' row gather, vector gather, and accumulating
  row / vector scatters.
-/
import proofs.«116010_j87333864997319_2_alg».proof.Proof.LibGcnLayer

noncomputable section

namespace Cert.Gcn

open Idealize.ShloMosaic Idealize.ShloMosaic.ValueIdx Idealize.ShloMosaic.RowIndex

variable (N D E : Nat)

/-- The f32 pattern of one denotes the number one. -/
theorem ofBits_one_f32 : Ideal.ofBits .f32 0x3F800000#32 = 1 := by
  simp [Ideal.ofBits, Ideal.ieee, -EReal.coe_mul]; norm_num

/-- `rsqrt` of a real number that is at least one is a nonnegative real. -/
theorem rsqrt_coe_nonnegReal {r : ℝ} (hr : 1 ≤ r) : ∃ s : ℝ, 0 ≤ s ∧ Ideal.rsqrt (r : EReal) = (s : EReal) := by
  refine ⟨(Real.sqrt r)⁻¹, inv_nonneg.mpr (Real.sqrt_nonneg r), ?_⟩
  rw [Ideal.rsqrt_coe, if_neg (by linarith), if_neg (by linarith)]

/-- The scale a degree count produces — `rsqrt` of (the number of edges sent to `n`, summed onto zero, plus one) —
    is a nonnegative real at every node. -/
theorem rsqrt_count_nonnegReal
    (vswf : ScatterDims.WF ⟨1, ![N]⟩ ⟨2, ![E, 1]⟩ ⟨1, ![E]⟩ [] [0] [0] 1)
    (z one : FVec Ideal ⟨1, ![N]⟩ .f32) (ones : FVec Ideal ⟨1, ![E]⟩ .f32) (idx : IVec ⟨2, ![E, 1]⟩ 32)
    (hz : ∀ i, z i = 0) (hone : ∀ i, one i = 1) (hones : ∀ i, ones i = 1) :
    NonnegReal (Host.rsqrt (addf (Host.scatterAdd (vecScatter N E vswf) z idx ones) one)) := by
  intro i
  obtain ⟨n, rfl⟩ : ∃ n : Fin N, i = ix1 n := ⟨i 0, eq_ix1 i⟩
  show ∃ r : ℝ, 0 ≤ r ∧ Ideal.rsqrt (Host.scatterAdd (vecScatter N E vswf) z idx ones (ix1 n) + one (ix1 n)) = (r : EReal)
  have hsum : ∑ e ∈ rowsTo E idx n.val, ones (ix1 e) = (((rowsTo E idx n.val).card : ℕ) : EReal) := by
    rw [Finset.sum_congr rfl (fun e _ => hones (ix1 e))]; simp
  rw [scatterAdd_vec_apply, hz, hone, zero_add, hsum]
  have : ((((rowsTo E idx n.val).card : ℕ) : EReal) + 1) = (((((rowsTo E idx n.val).card : ℕ) : ℝ) + 1 : ℝ) : EReal) := by
    rw [EReal.coe_add, EReal.coe_one, EReal.coe_natCast]
  rw [this]
  exact rsqrt_coe_nonnegReal (by have : (0 : ℝ) ≤ ((rowsTo E idx n.val).card : ℝ) := Nat.cast_nonneg _; linarith)

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))

include hN hb1 hb2 in
/-- The node-wise form of the layer at `(n, d)` — the scaled features `hs` gathered, summed per target into `agg`,
    the self-loop term added, the sum scaled again — is the edge-wise form there. -/
theorem layer_at (off : BitVec 32) (z z' h hs agg : FVec Ideal ⟨2, ![N, D]⟩ .f32)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c)
    (hhs : ∀ (n : Fin N) (d : Fin D), hs (ix2 n d) = h (ix2 n d) * dis (ix1 n))
    (hagg : agg = Host.scatterAdd (rowScatter N D E swf) z (col E hbE c)
              (Host.gather (rowsDims N D E gwf) hs (col E hbE rw)))
    (bias : EReal) (n : Fin N) (d : Fin D) :
    dis (ix1 n) * (agg (ix2 n d) + hs (ix2 n d)) + bias
      = (weighEdges N D E gwf swf vwf hbE hbED z' h dis rw cw c (ix2 n d)
          + h (ix2 n d) * (dis (ix1 n) * dis (ix1 n))) + bias := by
  have hhs' : hs = mulf h (spread N D hb1 hb2 dis) := by
    funext i
    obtain ⟨p, q, rfl⟩ : ∃ (p : Fin N) (q : Fin D), i = ix2 p q := ⟨i 0, i 1, eq_ix2 i⟩
    rw [hhs, mulf_apply, spread_apply]
  have key := congrFun (scaleFirst_eq_weighEdges N D E hN gwf swf vwf hb1 hb2 hbE hbED off z z' h dis rw cw c
    hz hz' hdis hcw) (ix2 n d)
  unfold scaleFirst at key
  rw [mulf_apply, spread_apply, ← hhs', ← hagg] at key
  obtain ⟨r, hr, hd⟩ := hdis (ix1 n)
  rw [← key, hhs n d, hd, EReal.left_distrib_of_nonneg_of_ne_top (EReal.coe_nonneg.mpr hr) (EReal.coe_ne_top r)]
  congr 2
  rw [mul_left_comm]

end

end Cert.Gcn

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.Bridge.lean ====
/-
  The bridge: the reference's stage functions are the kernel's, as functions of the argument arrays.

  * The reference's target list is the kernel's followed by the row numbers in order, and so is its source list
    (a two-operand concatenate with an iota): the self-loops appended.
  * Its guarded degree scale is the kernel's unguarded one: the count over the longer list is the kernel's count plus
    one, which is positive.
  * Each rectified layer over the longer list is the kernel's finished layer over the real edges: loop n contributes
    h (n, ·) · (dis n · dis n), the kernel's dense term (the column of coefficients is the scale squared), and the sum and
    the product commute.
  * The products agree because the narrowing to bf16 is the identity on the extended reals, and a head is the product plus
    the bias row on both sides.
-/
import proofs.«116010_j87333864997319_2_alg».proof.Proof.KernelValue
import proofs.«116010_j87333864997319_2_alg».proof.Proof.RefValue
import proofs.«116010_j87333864997319_2_alg».proof.Proof.LibLoopsLayer
import proofs.«116010_j87333864997319_2_alg».proof.Proof.LibGcnSelfLoop
import proofs.«116010_j87333864997319_2_alg».proof.Proof.LibHostRows
import Idealize.ShloMosaic.PureOps.Ideal.Laws

set_option maxRecDepth 16384

noncomputable section

open Idealize.ShloMosaic Idealize.ShloMosaic.ValueIdx Idealize.ShloMosaic.RowIndex
open Cert.Products Cert.Gcn

namespace Cert.Bridge

open Cert.KernelIdeal.Stages Cert.ReferenceIdeal.Stages

/-! ## Constants spread over an array -/

theorem bcast_zero {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 :=
  (broadcastInDim_scalar_apply h _ i).trans Ideal.ofBits_zero_f32

theorem bcast_one {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x3F800000#32) i = 1 :=
  (broadcastInDim_scalar_apply h _ i).trans ofBits_one_f32

theorem bcast_zero_word {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i
      = Ideal.ofBits .f32 0x00000000#32 :=
  broadcastInDim_scalar_apply h _ i

/-! ## The edge lists -/

variable (ei : IVec Cert.KernelIdeal.S2x800000 32)

theorem dst_loops : LoopsAppended (N := 50000) (dstK ei) (dstR ei) :=
  loopsAppended_concatenate _ _

theorem src_loops : LoopsAppended (N := 50000) (srcK ei) (srcR ei) :=
  loopsAppended_concatenate _ _

theorem wrapK_isWrap (v : IVec Cert.KernelIdeal.S800000 32) : IsWrapOf 800000 50000#32 (wrapK v) v := fun _ => rfl

theorem wrapR_isWrap (v : IVec Cert.ReferenceIdeal.S850000 32) : IsWrapOf 850000 50000#32 (wrapR v) v := fun _ => rfl

/-! ## The degree scale -/

theorem dinv_eq : dinvR ei = dinvK ei := by
  unfold dinvR degR dinvK
  exact dinv_loops (N := 50000) (E := 800000) (E' := 850000) rfl (by norm_num) _ _ _ _ _ _ _ _ _ _ _ (dstK ei) (dstR ei)
    (fun i => bcast_zero _ i) (fun i => bcast_zero _ i) (fun i => bcast_one _ i) (fun i => bcast_one _ i)
    (dst_loops ei) (fun i => bcast_zero _ i) (fun i => bcast_one _ i)

/-- The column of self-loop coefficients is the scale squared. -/
theorem dsq_apply (n : Fin 50000) : dsqK ei (ix2 n (0 : Fin 1)) = dinvK ei (ix1 n) * dinvK ei (ix1 n) := by
  unfold dsqK
  exact shapeCast_a_a1_apply _ _ n 0

/-! ## The layers -/

variable (x : FVec Ideal Cert.KernelIdeal.S50000x128 .f32) (w1 : FVec Ideal Cert.KernelIdeal.S128x256 .f32)
  (b1 : FVec Ideal Cert.KernelIdeal.S256 .f32) (w2 : FVec Ideal Cert.KernelIdeal.S256x128 .f32)
  (b2 : FVec Ideal Cert.KernelIdeal.S128 .f32)

theorem h1_eq : h1R x w1 = h1K x w1 :=
  dotGeneral_eq Cert.ReferenceIdeal.dot_S50000x128_S128x256_S50000x256_1_0_0_1_n_n rfl rfl rfl rfl rfl rfl none .single x w1

theorem act1_eq : act1R x ei w1 b1
    = finish (Ideal.ofBits .f32 0x00000000#32) (agg256 ei (h1K x w1)) (h1K x w1) (dsqK ei) b1 := by
  unfold act1R aggR256 agg256
  rw [dinv_eq, h1_eq]
  exact layer_loops (N := 50000) (D := 256) (E := 800000) (E' := 850000) rfl (by norm_num) (by norm_num)
    _ _ _ _ _ _ _ _ _ _ 50000#32 _ _ (h1K x w1) (dinvK ei)
    (srcK ei) (wrapK (srcK ei)) (dstK ei) (wrapK (dstK ei)) (srcR ei) (wrapR (srcR ei)) (dstR ei) (wrapR (dstR ei))
    (fun i => bcast_zero _ i) (fun i => bcast_zero _ i)
    (wrapK_isWrap _) (wrapR_isWrap _) (src_loops ei) (wrapK_isWrap _) (wrapR_isWrap _) (dst_loops ei)
    _ _ _ b1 (dsqK ei) (fun n d => broadcastInDim_row_apply b1 _ _ n d) (fun i => bcast_zero_word _ i) (dsq_apply ei)

theorem h2_eq : h2R x ei w1 b1 w2 = h2K x ei w1 b1 w2 := by
  unfold h2R h2K
  rw [act1_eq]
  exact dotGeneral_eq Cert.ReferenceIdeal.dot_S50000x256_S256x128_S50000x128_1_0_0_1_n_n rfl rfl rfl rfl rfl rfl none .single _ w2

theorem act2_eq : act2R x ei w1 b1 w2 b2
    = finish (Ideal.ofBits .f32 0x00000000#32) (agg128 ei (h2K x ei w1 b1 w2)) (h2K x ei w1 b1 w2) (dsqK ei) b2 := by
  unfold act2R aggR128 agg128
  rw [dinv_eq, h2_eq]
  exact layer_loops (N := 50000) (D := 128) (E := 800000) (E' := 850000) rfl (by norm_num) (by norm_num)
    _ _ _ _ _ _ _ _ _ _ 50000#32 _ _ (h2K x ei w1 b1 w2) (dinvK ei)
    (srcK ei) (wrapK (srcK ei)) (dstK ei) (wrapK (dstK ei)) (srcR ei) (wrapR (srcR ei)) (dstR ei) (wrapR (dstR ei))
    (fun i => bcast_zero _ i) (fun i => bcast_zero _ i)
    (wrapK_isWrap _) (wrapR_isWrap _) (src_loops ei) (wrapK_isWrap _) (wrapR_isWrap _) (dst_loops ei)
    _ _ _ b2 (dsqK ei) (fun n d => broadcastInDim_row_apply b2 _ _ n d) (fun i => bcast_zero_word _ i) (dsq_apply ei)

/-- A head of the reference is the kernel's. -/
theorem head_eq' (wh : FVec Ideal Cert.KernelIdeal.S128x128 .f32) (bh : FVec Ideal Cert.KernelIdeal.S128 .f32) :
    headR x ei w1 b1 w2 b2 wh bh = headK x ei w1 b1 w2 b2 wh bh := by
  unfold headR headK
  rw [act2_eq]
  exact head_eq Cert.ReferenceIdeal.dot_S50000x128_S128x128_S50000x128_1_0_0_1_n_n rfl rfl rfl rfl rfl rfl _ wh _ bh
    (fun n q => broadcastInDim_row_apply bh _ _ n q)

end Cert.Bridge

end
-- ==== Proof.lean ====
/-
  A two-layer graph convolution with two dense heads: the kernel against its jnp reference, equal as extended reals.

  The reference appends one self-loop per node to the edge list, guards its degree scale with `where (deg > 0)`, and for
  each layer gathers the rows of the dense product at the edges' sources, weighs each by the product of the two ends'
  scales, sums them per target and adds the bias. The kernel keeps the real edges only: it adds one to the edge count for
  the degree, sums the weighted rows over the real edges on the host, and inside the next dense kernel adds the self-loop
  as a dense term, the scale squared times the node's own row, before the bias and the rectifier. On the extended reals
  the two are one function of the arguments: the sum over the longer edge list splits at the joint into the sum over the
  real edges plus loop n's own term, which is the dense term; the count over the longer list is the count plus one, which
  is positive, so the guard is never taken; narrowing to bf16 is the identity; a block of rows of a product is the product
  of the block of rows. No finiteness of the inputs is used.

  The three frames: the kernel's two are its frame certificates; the reference's is its run with the results dropped.
  The idealization rewrote nothing, so `preserves` asks nothing.
-/
import proofs.«116010_j87333864997319_2_alg».proof.Defs
import proofs.«116010_j87333864997319_2_alg».proof.Proof.Gen.Kernel
import proofs.«116010_j87333864997319_2_alg».proof.Proof.Gen.Kernel.Skeleton
import proofs.«116010_j87333864997319_2_alg».proof.Proof.Gen.Kernel.Launch
import proofs.«116010_j87333864997319_2_alg».proof.Proof.Gen.Kernel.Points
import proofs.«116010_j87333864997319_2_alg».proof.Proof.Gen.Kernel.Frame
import proofs.«116010_j87333864997319_2_alg».proof.Proof.Gen.KernelIdeal
import proofs.«116010_j87333864997319_2_alg».proof.Proof.Gen.KernelIdeal.Skeleton
import proofs.«116010_j87333864997319_2_alg».proof.Proof.Gen.KernelIdeal.Launch
import proofs.«116010_j87333864997319_2_alg».proof.Proof.Gen.KernelIdeal.Points
import proofs.«116010_j87333864997319_2_alg».proof.Proof.Gen.KernelIdeal.Frame
import proofs.«116010_j87333864997319_2_alg».proof.Proof.Gen.ReferenceIdeal
import proofs.«116010_j87333864997319_2_alg».proof.Proof.Gen.Pre_finite_inputs
import proofs.«116010_j87333864997319_2_alg».proof.Proof.KernelRun
import proofs.«116010_j87333864997319_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RunP.run (F := Ideal) m ρ)

theorem preserves : Cert.preserves_Kernel_KernelIdeal := trivial

/-- Both programs end with each result at the kernel's stage function of the arguments: the kernel by reading its program
    back from the last boundary, the reference by its composed term, which is the same function. -/
theorem algebraic : Cert.algebraic_KernelIdeal_ReferenceIdeal := by
  intro m ρ m' ρ' _ hagree
  refine ⟨fun c => Cert.KernelIdeal.Stages.headK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Stages.headK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Stages.W6_v60_0 m ρ c),
        (h c).2.1.trans (Cert.KernelIdeal.Stages.W6_v60_1 m ρ c), (h c).2.2⟩)
      (Cert.KernelIdeal.RunP.run_results m ρ)
  · refine (θ_run Cert.ReferenceIdeal.defs _ _).mono (fun _ h c => ⟨?_, ?_, (h c).2.2⟩)
      (Cert.ReferenceIdeal.RunP.run (F := Ideal) m' ρ')
    · obtain ⟨a0, a1, a2, a3, a4, a5, a6, a7, a8, a9⟩ := hagree c
      rw [(h c).1, Cert.ReferenceIdeal.Stages.res_out0_eq, a0, a1, a2, a3, a4, a5, a6, a7]
      exact Cert.Bridge.head_eq' _ _ _ _ _ _ _ _
    · obtain ⟨a0, a1, a2, a3, a4, a5, a6, a7, a8, a9⟩ := hagree c
      rw [(h c).2.1, Cert.ReferenceIdeal.Stages.res_out1_eq, a0, a1, a2, a3, a4, a5, a8, a9]
      exact Cert.Bridge.head_eq' _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
